-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x512 : Shape := ⟨2, ![100000, 512]⟩
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S_ : Shape := ⟨0, ![]⟩

class Facts : Prop where
  bcast_S_S100000x512 : S_.BroadcastsInDim S100000x512 (![] : Fin 0 → Fin S100000x512.rank)
  reducesTo_S100000x512_S_d0_1 : S100000x512.ReducesTo [0, 1] S_
  h_S_ : 0 < S_.numel
  bcast_S_S100000x128 : S_.BroadcastsInDim S100000x128 (![] : Fin 0 → Fin S100000x128.rank)
  reducesTo_S100000x128_S_d0_1 : S100000x128.ReducesTo [0, 1] S_
  bcast_S_S512x128 : S_.BroadcastsInDim S512x128 (![] : Fin 0 → Fin S512x128.rank)
  reducesTo_S512x128_S_d0_1 : S512x128.ReducesTo [0, 1] S_
  bcast_S_S128 : S_.BroadcastsInDim S128 (![] : Fin 0 → Fin S128.rank)
  reducesTo_S128_S_d0 : S128.ReducesTo [0] S_
  bcast_S_S128x128 : S_.BroadcastsInDim S128x128 (![] : Fin 0 → Fin S128x128.rank)
  reducesTo_S128x128_S_d0_1 : S128x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S128 .f32) (main_arg9 : FVec F S128x64 .f32) (main_arg10 : FVec F S64 .f32) (main_arg11 : FVec F S128 .f32) (main_arg12 : FVec F S128 .f32) (main_arg13 : FVec F S128 .f32) (main_arg14 : FVec F S128 .f32) (main_v33 : IVec S_ 1) : IVec S_ 1 :=
  let main_v34 : FVec F S128 .f32 := Host.absf main_arg8
  let main_cst_12 : FVec F S_ .f32 := constant S_ .f32 0x7F800000#32
  let main_v35 : FVec F S128 .f32 := broadcastInDim S128 ![] bcast_S_S128 main_cst_12
  let main_v36 : IVec S128 1 := cmpf .olt main_v34 main_v35
  let main_c_13 : IVec S_ 1 := constantI S_ 1 1#1
  let main_v37 : IVec S_ 1 := (fun x v => Host.reduce IntOp.andi x v reducesTo_S128_S_d0 h_S_) main_v36 main_c_13
  let main_v38 : IVec S_ 1 := andi main_v33 main_v37
  let main_v39 : FVec F S128x64 .f32 := Host.absf main_arg9
  let main_cst_14 : FVec F S_ .f32 := constant S_ .f32 0x7F800000#32
  let main_v40 : FVec F S128x64 .f32 := broadcastInDim S128x64 ![] bcast_S_S128x64 main_cst_14
  let main_v41 : IVec S128x64 1 := cmpf .olt main_v39 main_v40
  let main_c_15 : IVec S_ 1 := constantI S_ 1 1#1
  let main_v42 : IVec S_ 1 := (fun x v => Host.reduce IntOp.andi x v reducesTo_S128x64_S_d0_1 h_S_) main_v41 main_c_15
  let main_v43 : IVec S_ 1 := andi main_v38 main_v42
  let main_v44 : FVec F S64 .f32 := Host.absf main_arg10
  let main_cst_16 : FVec F S_ .f32 := constant S_ .f32 0x7F800000#32
  let main_v45 : FVec F S64 .f32 := broadcastInDim S64 ![] bcast_S_S64 main_cst_16
  let main_v46 : IVec S64 1 := cmpf .olt main_v44 main_v45
  let main_c_17 : IVec S_ 1 := constantI S_ 1 1#1
  let main_v47 : IVec S_ 1 := (fun x v => Host.reduce IntOp.andi x v reducesTo_S64_S_d0 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S128 .f32) (main_arg12 : FVec F S128 .f32) (main_arg13 : FVec F S128 .f32) (main_arg14 : FVec F S128 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S100000x512 .f32) (main_arg1 : FVec F S100000x128 .f32) (main_arg2 : IVec S2x1600000 32) (main_arg3 : FVec F S512x128 .f32) (main_arg4 : FVec F S128 .f32) (main_arg5 : FVec F S128x128 .f32) (main_arg6 : FVec F S128 .f32) (main_arg7 : FVec F S128x128 .f32) (main_arg8 : FVec F S128 .f32) (main_arg9 : FVec F S128x64 .f32) (main_arg10 : FVec F S64 .f32) (main_arg11 : FVec F S128 .f32) (main_arg12 : FVec F S128 .f32) (main_arg13 : FVec F S128 .f32) (main_arg14 : FVec F S128 .f32) : IVec S_ 1 :=
  let main_v0 : FVec F S100000x512 .f32 := Host.absf main_arg0
  let main_cst : FVec F S_ .f32 := constant S_ .f32 0x7F800000#32
  let main_v1 : FVec F S100000x512 .f32 := broadcastInDim S100000x512 ![] bcast_S_S100000x512 main_cst
  let main_v2 : IVec S100000x512 1 := cmpf .olt main_v0 main_v1
  let main_c : IVec S_ 1 := constantI S_ 1 1#1
  let main_v3 : IVec S_ 1 := (fun x v => Host.reduce IntOp.andi x v reducesTo_S100000x512_S_d0_1 h_S_) main_v2 main_c
  let main_v4 : FVec F S100000x128 .f32 := Host.absf main_arg1
  let main_cst_0 : FVec F S_ .f32 := constant S_ .f32 0x7F800000#32
  let main_v5 : FVec F S100000x128 .f32 := broadcastInDim S100000x128 ![] bcast_S_S100000x128 main_cst_0
  let main_v6 : IVec S100000x128 1 := cmpf .olt main_v4 main_v5
  let main_c_1 : IVec S_ 1 := constantI S_ 1 1#1
  let main_v7 : IVec S_ 1 := (fun x v => Host.reduce IntOp.andi x v reducesTo_S100000x128_S_d0_1 h_S_) main_v6 main_c_1
  let main_v8 : IVec S_ 1 := andi main_v3 main_v7
  let main_v9 : FVec F S512x128 .f32 := Host.absf main_arg3
  let main_cst_2 : FVec F S_ .f32 := constant S_ .f32 0x7F800000#32
  let main_v10 : FVec F S512x128 .f32 := broadcastInDim S512x128 ![] bcast_S_S512x128 main_cst_2
  let main_v11 : IVec S512x128 1 := cmpf .olt main_v9 main_v10
  let main_c_3 : IVec S_ 1 := constantI S_ 1 1#1
  let main_v12 : IVec S_ 1 := (fun x v => Host.reduce IntOp.andi x v reducesTo_S512x128_S_d0_1 h_S_) main_v11 main_c_3
  let main_v13 : IVec S_ 1 := andi main_v8 main_v12
  let main_v14 : FVec F S128 .f32 := Host.absf main_arg4
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg5 main_arg6 main_arg7 main_arg8 main_arg9 main_arg10 main_arg11 main_arg12 main_arg13 main_arg14 main_v13 main_v16
-- ==== Kernel.lean ====
abbrev S100000x512 : Shape := ⟨2, ![100000, 512]⟩
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S2000x512 : Shape := ⟨2, ![2000, 512]⟩
abbrev S2000x128 : Shape := ⟨2, ![2000, 128]⟩
abbrev S1x128 : Shape := ⟨2, ![1, 128]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x128 : Shape := ⟨2, ![1600000, 128]⟩
abbrev S100000x64 : Shape := ⟨2, ![100000, 64]⟩
abbrev S2000x64 : Shape := ⟨2, ![2000, 64]⟩
abbrev S1600000x64 : Shape := ⟨2, ![1600000, 64]⟩
abbrev S1x64 : Shape := ⟨2, ![1, 64]⟩

abbrev nBuf : Space → Nat
  | .hbm => 53
  | .vmem => 20
  | .smem => 0
  | _ => 0

abbrev bufTy : (tb : Table) → Fin (tcTables nBuf tb) → BufTy
  | .hbm, ⟨0, _⟩ => ⟨S100000x512, .f32⟩
  | .hbm, ⟨1, _⟩ => ⟨S100000x128, .f32⟩
  | .hbm, ⟨2, _⟩ => ⟨S2x1600000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S100000x128, .f32⟩
  | .hbm, ⟨16, _⟩ => ⟨S1x1600000, .i32⟩
  | .hbm, ⟨17, _⟩ => ⟨S1600000, .i32⟩
  | .hbm, ⟨18, _⟩ => ⟨S1x1600000, .i32⟩
  | .hbm, ⟨19, _⟩ => ⟨S1600000, .i32⟩
  | .hbm, ⟨20, _⟩ => ⟨S_, .i32⟩
  | .hbm, ⟨21, _⟩ => ⟨S1600000, .i32⟩
  | .hbm, ⟨22, _⟩ => ⟨S1600000, .i1⟩
  | .hbm, ⟨23, _⟩ => ⟨S_, .i32⟩
  | .hbm, ⟨24, _⟩ => ⟨S1600000, .i32⟩
  | .hbm, ⟨25, _⟩ => ⟨S1600000, .i32⟩
  | .hbm, ⟨26, _⟩ => ⟨S1600000, .i32⟩
  | .hbm, ⟨27, _⟩ => ⟨S1600000x1, .i32⟩
  | .hbm, ⟨28, _⟩ => ⟨S1600000x128, .f32⟩
  | .hbm, ⟨29, _⟩ => ⟨S_, .f32⟩
  | .hbm, ⟨30, _⟩ => ⟨S100000x128, .f32⟩
  | .hbm, ⟨31, _⟩ => ⟨S1600000x1, .i32⟩
  | .hbm, ⟨32, _⟩ => ⟨S100000x128, .f32⟩
  | .hbm, ⟨33, _⟩ => ⟨S1x128, .f32⟩
  | .hbm, ⟨34, _⟩ => ⟨S100000x128, .f32⟩
  | .hbm, ⟨35, _⟩ => ⟨S100000x128, .f32⟩
  | .hbm, ⟨36, _⟩ => ⟨S100000x64, .f32⟩
  | .hbm, ⟨37, _⟩ => ⟨S_, .i32⟩
  | .hbm, ⟨38, _⟩ => ⟨S1600000, .i32⟩
  | .hbm, ⟨39, _⟩ => ⟨S1600000, .i1⟩
  | .hbm, ⟨40, _⟩ => ⟨S_, .i32⟩
  | .hbm, ⟨41, _⟩ => ⟨S1600000, .i32⟩
  | .hbm, ⟨42, _⟩ => ⟨S1600000, .i32⟩
  | .hbm, ⟨43, _⟩ => ⟨S1600000, .i32⟩
  | .hbm, ⟨44, _⟩ => ⟨S1600000x1, .i32⟩
  | .hbm, ⟨45, _⟩ => ⟨S1600000x64, .f32⟩
  | .hbm, ⟨46, _⟩ => ⟨S_, .f32⟩
  | .hbm, ⟨47, _⟩ => ⟨S100000x64, .f32⟩
  | .hbm, ⟨48, _⟩ => ⟨S1600000x1, .i32⟩
  | .hbm, ⟨49, _⟩ => ⟨S100000x64, .f32⟩
  | .hbm, ⟨50, _⟩ => ⟨S1x64, .f32⟩
  | .hbm, ⟨51, _⟩ => ⟨S100000x64, .f32⟩
  | .hbm, ⟨52, _⟩ => ⟨S100000x64, .f32⟩
  | .local _ .vmem, ⟨0, _⟩ => ⟨S2000x512, .f32⟩
  | .local _ .vmem, ⟨1, _⟩ => ⟨S2000x512, .f32⟩
  | .local _ .vmem, ⟨2, _⟩ => ⟨S2000x128, .f32⟩
  | .local _ .vmem, ⟨3, _⟩ => ⟨S2000x128, .f32⟩
  | .local _ .vmem, ⟨4, _⟩ => ⟨S512x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S128, .f32⟩
  | .local _ .vmem, ⟨14, _⟩ => ⟨S128, .f32⟩
  | .local _ .vmem, ⟨15, _⟩ => ⟨S128, .f32⟩
  | .local _ .vmem, ⟨16, _⟩ => ⟨S128, .f32⟩
  | .local _ .vmem, ⟨17, _⟩ => ⟨S128x64, .f32⟩
  | .local _ .vmem, ⟨18, _⟩ => ⟨S2000x64, .f32⟩
  | .local _ .vmem, ⟨19, _⟩ => ⟨S2000x64, .f32⟩
  | _, _ => ⟨S100000x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_c : Ref sig .tc := ⟨.hbm, 20, rfl⟩
abbrev main_v5 : Ref sig .tc := ⟨.hbm, 21, rfl⟩
abbrev main_v6 : Ref sig .tc := ⟨.hbm, 22, rfl⟩
abbrev main_c_0 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_c_1 : Ref sig .tc := ⟨.hbm, 37, rfl⟩
abbrev main_v19 : Ref sig .tc := ⟨.hbm, 38, rfl⟩
abbrev main_v20 : Ref sig .tc := ⟨.hbm, 39, rfl⟩
abbrev main_c_2 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_3 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg2_0 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg5_0 : Ref sig .tc := ⟨.vmem, 17, rfl⟩
abbrev cc1_stg6_0 : Ref sig .tc := ⟨.vmem, 18, rfl⟩
abbrev cc1_stg6_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem2_0 : DmaSem sig := 14
abbrev cc1_sem3_0 : DmaSem sig := 15
abbrev cc1_sem4_0 : DmaSem sig := 16
abbrev cc1_sem5_0 : DmaSem sig := 17
abbrev cc1_sem6_0 : DmaSem sig := 18
abbrev cc1_sem6_1 : DmaSem sig := 19

abbrev nD : Nat := 1
abbrev τ : Topo := Topo.v7x

variable {F : FTy → Type} [FloatOps F]

abbrev grid0 : Pipeline.Grid := ⟨1, ![50], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_4 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 2 → Memref sig .tc .vmem S2000x64 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  inb_S2000x512_S2000x512_0_0 : ∀ a, (![0, 0] : Fin 2 → Nat) a + S2000x512.size a ≤ S2000x512.size a
  h_S2000x512 : 0 < S2000x512.numel
  bitsLt_bf16_f32 : FTy.bits .bf16 < FTy.bits .f32
  inb_S2000x128_S2000x128_0_0 : ∀ a, (![0, 0] : Fin 2 → Nat) a + S2000x128.size a ≤ S2000x128.size a
  h_S2000x128 : 0 < S2000x128.numel
  inb_S512x128_S512x128_0_0 : ∀ a, (![0, 0] : Fin 2 → Nat) a + S512x128.size a ≤ S512x128.size a
  h_S512x128 : 0 < S512x128.numel
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S2000x128 : S1x128.Broadcasts S2000x128
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  shapeCasts_S2000x128_S2000x128 : S2000x128.ShapeCasts S2000x128
  inb_S128x64_S128x64_0_0 : ∀ a, (![0, 0] : Fin 2 → Nat) a + S128x64.size a ≤ S128x64.size a
  h_S128x64 : 0 < S128x64.numel
  inb_S2000x64_S2000x64_0_0 : ∀ a, (![0, 0] : Fin 2 → Nat) a + S2000x64.size a ≤ S2000x64.size a
  h_S2000x64 : 0 < S2000x64.numel
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S2000x512_S512x128_S2000x128_1_0_0_1_n_n_wf : DotDims.WF S2000x512 S512x128 S2000x128 [1] [0] [0] [1] [] []
  dot_S2000x128_S128x128_S2000x128_1_0_0_1_n_n_wf : DotDims.WF S2000x128 S128x128 S2000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S2000x128_S128x64_S2000x64_1_0_0_1_n_n_wf : DotDims.WF S2000x128 S128x64 S2000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x512.size a ≤ S100000x512.size a
  hwx0_0 : ∀ i : grid0.Coords, EltTy.bits .f32 = 32 ∨ (Rect.block (s := S100000x512) S2000x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S100000x128.size a
  hwx0_1 : ∀ i : grid0.Coords, EltTy.bits .f32 = 32 ∨ (Rect.block (s := S100000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x128.size a ≤ S512x128.size a
  hwx0_2 : ∀ i : grid0.Coords, EltTy.bits .f32 = 32 ∨ (Rect.block (s := S512x128) S512x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x128.size a ≤ S128x128.size a
  hwx0_6 : ∀ i : grid0.Coords, EltTy.bits .f32 = 32 ∨ (Rect.block (s := S128x128) S128x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S100000x128.size a
  hwx0_7 : ∀ i : grid0.Coords, EltTy.bits .f32 = 32 ∨ (Rect.block (s := S100000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S100000x128.size a
  hwx1_0 : ∀ i : grid1.Coords, EltTy.bits .f32 = 32 ∨ (Rect.block (s := S100000x128) S2000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128.size a ≤ S128.size a
  hwx1_3 : ∀ i : grid1.Coords, EltTy.bits .f32 = 32 ∨ (Rect.block (s := S128) S128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128.size a ≤ S128.size a
  hwx1_4 : ∀ i : grid1.Coords, EltTy.bits .f32 = 32 ∨ (Rect.block (s := S128) S128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x64.size a ≤ S128x64.size a
  hwx1_5 : ∀ i : grid1.Coords, EltTy.bits .f32 = 32 ∨ (Rect.block (s := S128x64) S128x64.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x64.size a ≤ S100000x64.size a
  hwx1_6 : ∀ i : grid1.Coords, EltTy.bits .f32 = 32 ∨ (Rect.block (s := S100000x64) S2000x64.size (cc1_transform_6 i) (hinb1_6 i)).WholeWords (EltTy.packing .f32)

variable [Facts₀]

def dot_S2000x512_S512x128_S2000x128_1_0_0_1_n_n : DotDims S2000x512 S512x128 S2000x128 where
  lhsContracting := [1]
  rhsContracting := [0]
  lhsNonContracting := [0]
  rhsNonContracting := [1]
  lhsBatch := []
  rhsBatch := []
  wf := dot_S2000x512_S512x128_S2000x128_1_0_0_1_n_n_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

abbrev win0_0 : Pipeline.Window sig grid0 :=
  Pipeline.Window.ofSpec (Memref.whole main_arg0) S2000x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S512x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v0) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v17) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg11) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg12) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg13) S128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg14) S128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg9) S128x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v18) S2000x64.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S100000x512 : Shape := ⟨2, ![100000, 512]⟩
abbrev S100000x128 : Shape := ⟨2, ![100000, 128]⟩
abbrev S2x1600000 : Shape := ⟨2, ![2, 1600000]⟩
abbrev S512x128 : Shape := ⟨2, ![512, 128]⟩
abbrev S128 : Shape := ⟨1, ![128]⟩
abbrev S128x128 : Shape := ⟨2, ![128, 128]⟩
abbrev S128x64 : Shape := ⟨2, ![128, 64]⟩
abbrev S64 : Shape := ⟨1, ![64]⟩
abbrev S1x128 : Shape := ⟨2, ![1, 128]⟩
abbrev S_ : Shape := ⟨0, ![]⟩
abbrev S1x1600000 : Shape := ⟨2, ![1, 1600000]⟩
abbrev S1600000 : Shape := ⟨1, ![1600000]⟩
abbrev S1600000x1 : Shape := ⟨2, ![1600000, 1]⟩
abbrev S1600000x128 : Shape := ⟨2, ![1600000, 128]⟩
abbrev S100000x64 : Shape := ⟨2, ![100000, 64]⟩
abbrev S1600000x64 : Shape := ⟨2, ![1600000, 64]⟩
abbrev S1x64 : Shape := ⟨2, ![1, 64]⟩

abbrev nBuf : Space → Nat
  | .hbm => 87
  | .vmem => 0
  | .smem => 0
  | _ => 0

abbrev bufTy : (tb : Table) → Fin (tcTables nBuf tb) → BufTy
  | .hbm, ⟨0, _⟩ => ⟨S100000x512, .f32⟩
  | .hbm, ⟨1, _⟩ => ⟨S100000x128, .f32⟩
  | .hbm, ⟨2, _⟩ => ⟨S2x1600000, .i32⟩
  | .hbm, ⟨3, _⟩ => ⟨S512x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S128, .f32⟩
  | .hbm, ⟨9, _⟩ => ⟨S128x64, .f32⟩
  | .hbm, ⟨10, _⟩ => ⟨S64, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S100000x128, .f32⟩
  | .hbm, ⟨16, _⟩ => ⟨S1x128, .f32⟩
  | .hbm, ⟨17, _⟩ => ⟨S100000x128, .f32⟩
  | .hbm, ⟨18, _⟩ => ⟨S100000x128, .f32⟩
  | .hbm, ⟨19, _⟩ => ⟨S_, .f32⟩
  | .hbm, ⟨20, _⟩ => ⟨S100000x128, .f32⟩
  | .hbm, ⟨21, _⟩ => ⟨S100000x128, .f32⟩
  | .hbm, ⟨22, _⟩ => ⟨S100000x128, .f32⟩
  | .hbm, ⟨23, _⟩ => ⟨S1x128, .f32⟩
  | .hbm, ⟨24, _⟩ => ⟨S100000x128, .f32⟩
  | .hbm, ⟨25, _⟩ => ⟨S100000x128, .f32⟩
  | .hbm, ⟨26, _⟩ => ⟨S_, .f32⟩
  | .hbm, ⟨27, _⟩ => ⟨S100000x128, .f32⟩
  | .hbm, ⟨28, _⟩ => ⟨S100000x128, .f32⟩
  | .hbm, ⟨29, _⟩ => ⟨S100000x128, .f32⟩
  | .hbm, ⟨30, _⟩ => ⟨S1x1600000, .i32⟩
  | .hbm, ⟨31, _⟩ => ⟨S1600000, .i32⟩
  | .hbm, ⟨32, _⟩ => ⟨S1x1600000, .i32⟩
  | .hbm, ⟨33, _⟩ => ⟨S1600000, .i32⟩
  | .hbm, ⟨34, _⟩ => ⟨S100000x128, .f32⟩
  | .hbm, ⟨35, _⟩ => ⟨S_, .i32⟩
  | .hbm, ⟨36, _⟩ => ⟨S1600000, .i32⟩
  | .hbm, ⟨37, _⟩ => ⟨S1600000, .i1⟩
  | .hbm, ⟨38, _⟩ => ⟨S_, .i32⟩
  | .hbm, ⟨39, _⟩ => ⟨S1600000, .i32⟩
  | .hbm, ⟨40, _⟩ => ⟨S1600000, .i32⟩
  | .hbm, ⟨41, _⟩ => ⟨S1600000, .i32⟩
  | .hbm, ⟨42, _⟩ => ⟨S1600000x1, .i32⟩
  | .hbm, ⟨43, _⟩ => ⟨S1600000x128, .f32⟩
  | .hbm, ⟨44, _⟩ => ⟨S_, .f32⟩
  | .hbm, ⟨45, _⟩ => ⟨S100000x128, .f32⟩
  | .hbm, ⟨46, _⟩ => ⟨S1600000x1, .i32⟩
  | .hbm, ⟨47, _⟩ => ⟨S100000x128, .f32⟩
  | .hbm, ⟨48, _⟩ => ⟨S1x128, .f32⟩
  | .hbm, ⟨49, _⟩ => ⟨S100000x128, .f32⟩
  | .hbm, ⟨50, _⟩ => ⟨S100000x128, .f32⟩
  | .hbm, ⟨51, _⟩ => ⟨S1x128, .f32⟩
  | .hbm, ⟨52, _⟩ => ⟨S100000x128, .f32⟩
  | .hbm, ⟨53, _⟩ => ⟨S100000x128, .f32⟩
  | .hbm, ⟨54, _⟩ => ⟨S_, .f32⟩
  | .hbm, ⟨55, _⟩ => ⟨S128, .f32⟩
  | .hbm, ⟨56, _⟩ => ⟨S128, .f32⟩
  | .hbm, ⟨57, _⟩ => ⟨S128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S1x128, .f32⟩
  | .hbm, ⟨62, _⟩ => ⟨S100000x128, .f32⟩
  | .hbm, ⟨63, _⟩ => ⟨S100000x128, .f32⟩
  | .hbm, ⟨64, _⟩ => ⟨S1x128, .f32⟩
  | .hbm, ⟨65, _⟩ => ⟨S100000x128, .f32⟩
  | .hbm, ⟨66, _⟩ => ⟨S100000x128, .f32⟩
  | .hbm, ⟨67, _⟩ => ⟨S_, .f32⟩
  | .hbm, ⟨68, _⟩ => ⟨S100000x128, .f32⟩
  | .hbm, ⟨69, _⟩ => ⟨S100000x128, .f32⟩
  | .hbm, ⟨70, _⟩ => ⟨S100000x64, .f32⟩
  | .hbm, ⟨71, _⟩ => ⟨S_, .i32⟩
  | .hbm, ⟨72, _⟩ => ⟨S1600000, .i32⟩
  | .hbm, ⟨73, _⟩ => ⟨S1600000, .i1⟩
  | .hbm, ⟨74, _⟩ => ⟨S_, .i32⟩
  | .hbm, ⟨75, _⟩ => ⟨S1600000, .i32⟩
  | .hbm, ⟨76, _⟩ => ⟨S1600000, .i32⟩
  | .hbm, ⟨77, _⟩ => ⟨S1600000, .i32⟩
  | .hbm, ⟨78, _⟩ => ⟨S1600000x1, .i32⟩
  | .hbm, ⟨79, _⟩ => ⟨S1600000x64, .f32⟩
  | .hbm, ⟨80, _⟩ => ⟨S_, .f32⟩
  | .hbm, ⟨81, _⟩ => ⟨S100000x64, .f32⟩
  | .hbm, ⟨82, _⟩ => ⟨S1600000x1, .i32⟩
  | .hbm, ⟨83, _⟩ => ⟨S100000x64, .f32⟩
  | .hbm, ⟨84, _⟩ => ⟨S1x64, .f32⟩
  | .hbm, ⟨85, _⟩ => ⟨S100000x64, .f32⟩
  | .hbm, ⟨86, _⟩ => ⟨S100000x64, .f32⟩
  | _, _ => ⟨S100000x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_cst_0 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_v16 : Ref sig .tc := ⟨.hbm, 33, rfl⟩
abbrev main_v17 : Ref sig .tc := ⟨.hbm, 34, rfl⟩
abbrev main_c : Ref sig .tc := ⟨.hbm, 35, rfl⟩
abbrev main_v18 : Ref sig .tc := ⟨.hbm, 36, rfl⟩
abbrev main_v19 : Ref sig .tc := ⟨.hbm, 37, rfl⟩
abbrev main_c_1 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_2 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_3 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_call0_cst : Ref sig .tc := ⟨.hbm, 67, rfl⟩
abbrev main_call0_v0 : Ref sig .tc := ⟨.hbm, 68, rfl⟩
abbrev main_v46 : Ref sig .tc := ⟨.hbm, 69, rfl⟩
abbrev main_v47 : Ref sig .tc := ⟨.hbm, 70, rfl⟩
abbrev main_c_4 : Ref sig .tc := ⟨.hbm, 71, rfl⟩
abbrev main_v48 : Ref sig .tc := ⟨.hbm, 72, rfl⟩
abbrev main_v49 : Ref sig .tc := ⟨.hbm, 73, rfl⟩
abbrev main_c_5 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_cst_6 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_v60 : Ref sig .tc := ⟨.hbm, 86, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S_S100000x128 : S_.BroadcastsInDim S100000x128 (![] : Fin 0 → Fin S100000x128.rank)
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S128 : S_.BroadcastsInDim S128 (![] : Fin 0 → Fin S128.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  dot_S100000x512_S512x128_S100000x128_1_0_0_1_n_n_wf : DotDims.WF S100000x512 S512x128 S100000x128 [1] [0] [0] [1] [] []
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  dot_S100000x128_S128x64_S100000x64_1_0_0_1_n_n_wf : DotDims.WF S100000x128 S128x64 S100000x64 [1] [0] [0] [1] [] []
  gather_S100000x64_S1600000x1_S1600000x64_1_0_n_n_0_1_164_wf : GatherDims.WF S100000x64 S1600000x1 S1600000x64 [1] [0] [] [0] [] 1 ![1, 64]
  scatter_S100000x64_S1600000x1_S1600000x64_1_0_0_1_wf : ScatterDims.WF S100000x64 S1600000x1 S1600000x64 [1] [0] [0] 1

variable [Facts₀]

def dot_S100000x512_S512x128_S100000x128_1_0_0_1_n_n : DotDims S100000x512 S512x128 S100000x128 where
  lhsContracting := [1]
  rhsContracting := [0]
  lhsNonContracting := [0]
  rhsNonContracting := [1]
  lhsBatch := []
  rhsBatch := []
  wf := dot_S100000x512_S512x128_S100000x128_1_0_0_1_n_n_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S1600000x1_S1600000x64_1_0_n_n_0_1_164 : GatherDims S100000x64 S1600000x1 S1600000x64 where
  offsetDims := [1]
  collapsedSliceDims := [0]
  operandBatchingDims := []
  startIndicesBatchingDims := []
  startIndexMap := [0]
  indexVectorDim := 1
  sliceSizes := ![1, 64]
  wf := gather_S100000x64_S1600000x1_S1600000x64_1_0_n_n_0_1_164_wf
def scatter_S100000x64_S1600000x1_S1600000x64_1_0_0_1 : ScatterDims S100000x64 S1600000x1 S1600000x64 where
  updateWindowDims := [1]
  insertedWindowDims := [0]
  scatterDimsToOperandDims := [0]
  indexVectorDim := 1
  wf := scatter_S100000x64_S1600000x1_S1600000x64_1_0_0_1_wf

class Facts : Prop extends Facts₀ where

variable [Facts]
-- ==== Proof.WholeRun.lean ====
/-
  The idealized kernel program, run as a whole, with its RESULT read.

  The program is four segments in a row: the first row-tiled matrix stage, a stretch of host operations (the
  gather of rows by source node, the scatter-add by destination node, the bias), the second row-tiled stage, and a
  second stretch of host operations of the same kind. The contents of the device's buffers at the boundaries of the
  segments form a chain: from the launch memory, a stage leaves its windows' arrays at what its write-backs leave
  and every other buffer untouched, a host stretch leaves every buffer at the composition of its operations. Every
  weakly fair execution terminates without a fault in a state whose unscoped buffers hold the LAST link of that
  chain. Read at the result buffer this gives the result as the last link's value there; read at an argument's
  buffer it gives the launch contents, since no segment writes an argument.
-/
import proofs.«135634_j90752658964688_1_alg».proof.Proof.Gen.KernelIdeal.Frame

set_option maxRecDepth 16384

noncomputable section

namespace Cert.KernelIdeal.WholeRun

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this statement, which takes
-- unfolding plain definitions in a metavariable's type
set_option backward.isDefEq.respectTransparency.types false in
/-- From any memory with zero counters every weakly fair execution of the program terminates, nothing faulting, and
    in every final state the result buffer holds the last link of the chain of boundary contents read at that
    buffer, and each argument's buffer holds what it held at the launch. -/
theorem run_result : θ_run defs (onTc (τ := τ) (main (F := F))) ⟨m, fun _ => 0, ρ⟩ (fun r => ∀ c : Dev nD,
      r.2.mem ((c.tc : Thread nD τ).loc main_v31) = W4 m ρ c (Proc.devRef .tc main_v31)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c =>
      ⟨h c _ (mem_uc main_v31 (by decide)),
       (h c _ (mem_uc main_arg0 (by decide))).trans (W4_main_arg0 m ρ c),
       (h c _ (mem_uc main_arg1 (by decide))).trans (W4_main_arg1 m ρ c),
       (h c _ (mem_uc main_arg2 (by decide))).trans (W4_main_arg2 m ρ c),
       (h c _ (mem_uc main_arg3 (by decide))).trans (W4_main_arg3 m ρ c),
       (h c _ (mem_uc main_arg4 (by decide))).trans (W4_main_arg4 m ρ c),
       (h c _ (mem_uc main_arg5 (by decide))).trans (W4_main_arg5 m ρ c),
       (h c _ (mem_uc main_arg6 (by decide))).trans (W4_main_arg6 m ρ c),
       (h c _ (mem_uc main_arg7 (by decide))).trans (W4_main_arg7 m ρ c),
       (h c _ (mem_uc main_arg8 (by decide))).trans (W4_main_arg8 m ρ c),
       (h c _ (mem_uc main_arg9 (by decide))).trans (W4_main_arg9 m ρ c),
       (h c _ (mem_uc main_arg10 (by decide))).trans (W4_main_arg10 m ρ c),
       (h c _ (mem_uc main_arg11 (by decide))).trans (W4_main_arg11 m ρ c),
       (h c _ (mem_uc main_arg12 (by decide))).trans (W4_main_arg12 m ρ c),
       (h c _ (mem_uc main_arg13 (by decide))).trans (W4_main_arg13 m ρ c),
       (h c _ (mem_uc main_arg14 (by decide))).trans (W4_main_arg14 m ρ c)⟩)

end Cert.KernelIdeal.WholeRun

end
-- ==== Proof.HostGlue.lean ====
/-
  The host operations between and after the two row-tiled stages, read as the reference's stages.

  Both stretches are the same few operations in the kernel program and in the reference: the two rows of the edge
  list are sliced out and flattened (source nodes, destination nodes); a negative source index is wrapped by adding
  the number of nodes; the rows of the stage's output are gathered by source node, scatter-added into a zero array by
  destination node, and a bias row is added. So when the buffers a stretch reads hold the reference's stages, the
  buffers it writes hold the reference's next stages: the same operations applied to equal operands, and there is
  nothing to compute. A buffer that no operation of a stretch writes keeps its contents.
-/
import proofs.«135634_j90752658964688_1_alg».proof.Proof.Gen.KernelIdeal.Launch
import proofs.«135634_j90752658964688_1_alg».proof.Proof.Gen.ReferenceIdeal.Read
import Idealize.ShloMosaic.Lib.StableHlo.Run

set_option maxRecDepth 16384
set_option maxHeartbeats 4000000

noncomputable section

namespace Cert.KernelIdeal.HostGlue

open Idealize.ShloMosaic Idealize.ShloMosaic.TcCoe Idealize.SL.Sem Idealize.ShloMosaic.StableHlo
open Cert.KernelIdeal Cert.KernelIdeal.Gen

variable (W : Valuation τ sig (Elt Ideal))
variable (x0 : S100000x512.Idx → EReal) (x1 : S100000x128.Idx → EReal) (x2 : S2x1600000.Idx → BitVec 32) (x3 : S512x128.Idx → EReal)
  (x4 : S128.Idx → EReal) (x5 : S128x128.Idx → EReal) (x6 : S128.Idx → EReal) (x7 : S128x128.Idx → EReal) (x8 : S128.Idx → EReal)
  (x9 : S128x64.Idx → EReal) (x10 : S64.Idx → EReal) (x11 x12 x13 x14 : S128.Idx → EReal)

/-! ## The first stretch: between the two stages -/

/-- From the first stage's output at the reference's %17 (the blended features times the first layer's weights),
    the edge list and the first bias, the second stage's first operand ends at the reference's %30: the rows gathered
    by source node, scatter-added by destination node, plus the bias. -/
theorem first_aggregate (h0 : W (Proc.devRef .tc main_v0) = Cert.ReferenceIdeal.Read.val_main_v17 (F := Ideal) x0 x1 x3 x4 x5 x6 x7)
    (he : W (Proc.devRef .tc main_arg2) = x2) (h8 : W (Proc.devRef .tc main_arg8) = x8) :
    StableHlo.after (hostOps1 (F := Ideal)) W (Proc.devRef .tc main_v17)
      = Cert.ReferenceIdeal.Read.val_main_v30 (F := Ideal) x0 x1 x2 x3 x4 x5 x6 x7 x8 := by
  after_results_simp
  rw [h0, he, h8]
  rfl

/-- The flattened row of source nodes is the reference's %14. -/
theorem first_sources (he : W (Proc.devRef .tc main_arg2) = x2) :
    StableHlo.after (hostOps1 (F := Ideal)) W (Proc.devRef .tc main_v2) = Cert.ReferenceIdeal.Read.val_main_v14 (F := Ideal) x2 := by
  after_results_simp
  rw [he]
  rfl

/-- The flattened row of destination nodes is the reference's %16. -/
theorem first_destinations (he : W (Proc.devRef .tc main_arg2) = x2) :
    StableHlo.after (hostOps1 (F := Ideal)) W (Proc.devRef .tc main_v4) = Cert.ReferenceIdeal.Read.val_main_v16 (F := Ideal) x2 := by
  after_results_simp
  rw [he]
  rfl

/-- The first stretch writes none of the arguments the later segments read. -/
theorem first_keeps_arg9 : StableHlo.after (hostOps1 (F := Ideal)) W (Proc.devRef .tc main_arg9) = W (Proc.devRef .tc main_arg9) := by
  after_results_simp
theorem first_keeps_arg10 : StableHlo.after (hostOps1 (F := Ideal)) W (Proc.devRef .tc main_arg10) = W (Proc.devRef .tc main_arg10) := by
  after_results_simp
theorem first_keeps_arg11 : StableHlo.after (hostOps1 (F := Ideal)) W (Proc.devRef .tc main_arg11) = W (Proc.devRef .tc main_arg11) := by
  after_results_simp
theorem first_keeps_arg12 : StableHlo.after (hostOps1 (F := Ideal)) W (Proc.devRef .tc main_arg12) = W (Proc.devRef .tc main_arg12) := by
  after_results_simp
theorem first_keeps_arg13 : StableHlo.after (hostOps1 (F := Ideal)) W (Proc.devRef .tc main_arg13) = W (Proc.devRef .tc main_arg13) := by
  after_results_simp
theorem first_keeps_arg14 : StableHlo.after (hostOps1 (F := Ideal)) W (Proc.devRef .tc main_arg14) = W (Proc.devRef .tc main_arg14) := by
  after_results_simp

/-! ## The second stretch: after the second stage -/

/-- From the second stage's output at the reference's %47 (the normalized, rectified aggregate times the second
    layer's weights), the flattened source and destination rows at %14 and %16 and the last bias, the result buffer
    ends at the reference's result %60. -/
theorem second_aggregate (h18 : W (Proc.devRef .tc main_v18) = Cert.ReferenceIdeal.Read.val_main_v47 (F := Ideal) x0 x1 x2 x3 x4 x5 x6 x7 x8 x9 x11 x12 x13 x14)
    (h2 : W (Proc.devRef .tc main_v2) = Cert.ReferenceIdeal.Read.val_main_v14 (F := Ideal) x2)
    (h4 : W (Proc.devRef .tc main_v4) = Cert.ReferenceIdeal.Read.val_main_v16 (F := Ideal) x2)
    (h10 : W (Proc.devRef .tc main_arg10) = x10) :
    StableHlo.after (hostOps2 (F := Ideal)) W (Proc.devRef .tc main_v31)
      = Cert.ReferenceIdeal.Read.val_main_v60 (F := Ideal) x0 x1 x2 x3 x4 x5 x6 x7 x8 x9 x10 x11 x12 x13 x14 := by
  after_results_simp
  rw [h18, h2, h4, h10]
  rfl

end Cert.KernelIdeal.HostGlue

end
-- ==== Proof.LibPlainDot.lean ====
/-
  A matrix product with the plain dimension numbers, read at one entry of its result on the extended reals.

  The left operand is [M, K], contracted on its second axis against the first axis of the right operand [K, N];
  there is no batch axis. Entry (p, q) of the product is the sum over k of lhs (p, k) · rhs (k, q). This holds for
  the vector unit's product into a zero accumulator (the zero word denotes 0, and 0 + s = s) and for the host's
  `dot_general`, for all extents M, K, N. A record of dimension numbers is determined by its six lists of axes
  (its remaining field is a proof), so the statements are about `DotDims.plain M K N` and apply to every record
  that lists the same axes.
-/
import Idealize.ShloMosaic.PureOps.Ideal.Laws
import Idealize.ShloMosaic.Lib.ValueIdx

noncomputable section

open scoped BigOperators

namespace Cert.LibPlainDot

open Idealize.ShloMosaic Idealize.ShloMosaic.ValueIdx

variable {M K N : Nat}

/-- The contraction index of the plain product is its one coordinate, k < K. -/
abbrev kEquiv (M K N : Nat) : (DotDims.plain M K N).contr.Idx ≃ Fin K :=
  contrEquiv1 (DotDims.plain M K N) K rfl rfl

/-- The left operand's row axis is the result's first axis: it reads the result entry's row. -/
theorem lhs_row (j : (⟨2, ![M, N]⟩ : Shape).Idx) (κ : (DotDims.plain M K N).contr.Idx) :
    ((DotDims.plain M K N).lhsIdx j κ 0).val = (j 0).val := by
  unfold DotDims.lhsIdx
  rw [dif_neg (show ¬(0 : Fin 2) ∈ (DotDims.plain M K N).lhsBatch from List.not_mem_nil),
    dif_pos (show (0 : Fin 2) ∈ (DotDims.plain M K N).lhsNonContracting from List.mem_singleton.mpr rfl)]
  rfl

/-- The left operand's column axis is the contracted one: it reads the contraction coordinate. -/
theorem lhs_col (j : (⟨2, ![M, N]⟩ : Shape).Idx) (k : Fin K) :
    ((DotDims.plain M K N).lhsIdx j ((kEquiv M K N).symm k) 1).val = k.val :=
  ((DotDims.plain M K N).lhsIdx_val_of_single rfl j _).trans (contrEquiv1_symm_val (DotDims.plain M K N) K rfl rfl k)

/-- The right operand's row axis is the contracted one. -/
theorem rhs_row (j : (⟨2, ![M, N]⟩ : Shape).Idx) (k : Fin K) :
    ((DotDims.plain M K N).rhsIdx j ((kEquiv M K N).symm k) 0).val = k.val :=
  ((DotDims.plain M K N).rhsIdx_val_of_single rfl j _).trans (contrEquiv1_symm_val (DotDims.plain M K N) K rfl rfl k)

/-- The right operand's column axis is the result's second axis: it reads the result entry's column. -/
theorem rhs_col (j : (⟨2, ![M, N]⟩ : Shape).Idx) (κ : (DotDims.plain M K N).contr.Idx) :
    ((DotDims.plain M K N).rhsIdx j κ 1).val = (j 1).val := by
  unfold DotDims.rhsIdx
  rw [dif_neg (show ¬(1 : Fin 2) ∈ (DotDims.plain M K N).rhsBatch from List.not_mem_nil),
    dif_pos (show (1 : Fin 2) ∈ (DotDims.plain M K N).rhsNonContracting from List.mem_singleton.mpr rfl)]
  rfl

/-- At result entry (p, q) and contraction coordinate k the left operand is read at (p, k) -/
theorem lhsIdx_plain (p : Fin M) (q : Fin N) (k : Fin K) :
    (DotDims.plain M K N).lhsIdx (ix2 p q) ((kEquiv M K N).symm k) = ix2 p k :=
  funext fun a => Fin.ext (by
    match a with
    | ⟨0, _⟩ => exact lhs_row (ix2 p q) _
    | ⟨1, _⟩ => exact lhs_col (ix2 p q) k)

/-- and the right operand at (k, q). -/
theorem rhsIdx_plain (p : Fin M) (q : Fin N) (k : Fin K) :
    (DotDims.plain M K N).rhsIdx (ix2 p q) ((kEquiv M K N).symm k) = ix2 k q :=
  funext fun a => Fin.ext (by
    match a with
    | ⟨0, _⟩ => exact rhs_row (ix2 p q) k
    | ⟨1, _⟩ => exact rhs_col (ix2 p q) _)

/-- The sum over the contraction index of the two operands' entries is the sum over k < K of lhs (p, k) · rhs (k, q). -/
theorem sum_contr {φ₁ φ₂ : FTy} (lhs : FVec Ideal ⟨2, ![M, K]⟩ φ₁) (rhs : FVec Ideal ⟨2, ![K, N]⟩ φ₂)
    (p : Fin M) (q : Fin N) :
    (∑ κ : (DotDims.plain M K N).contr.Idx,
        lhs ((DotDims.plain M K N).lhsIdx (ix2 p q) κ) * rhs ((DotDims.plain M K N).rhsIdx (ix2 p q) κ) : EReal)
      = ∑ k : Fin K, lhs (ix2 p k) * rhs (ix2 k q) := by
  rw [← Equiv.sum_comp (kEquiv M K N).symm]
  exact Finset.sum_congr rfl fun k _ =>
    congrArg₂ (fun a b => (lhs a * rhs b : EReal)) (lhsIdx_plain p q k) (rhsIdx_plain p q k)

/-- The vector unit's product into the zero accumulator, at entry (p, q). -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant (F := Ideal) ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general`, at entry (p, q). -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.LibPlainDot

end
-- ==== Proof.Stage0.lean ====
/-
  The first kernel call's output array is the reference's first stage, on the extended reals.

  The stage maps the two feature matrices x₁ [100000,512] and x₂ [100000,128] to
      z = (c₁·(x₁·W₁ + b₁) + c₂·(x₂·W₂ + b₂))·Wg        [100000,128],
  with W₁ [512,128], W₂ [128,128], Wg [128,128], the bias vectors b₁, b₂ [128] added to every row, and c₁, c₂ the
  two blend weights, which stay the float32 words 0x3F4CCCCD and 0x3E4CCCCD throughout: the same words occur on
  both sides and are never evaluated. Entry (P, q) of z is
      ∑ k<128, (c₁·((∑ j<512, x₁(P,j)·W₁(j,k)) + b₁(k)) + c₂·((∑ j<128, x₂(P,j)·W₂(j,k)) + b₂(k)))·Wg(k,q),
  a function of row P of x₁ and x₂ alone.

  The reference computes z on the whole arrays. The kernel call computes it fifty times on 2000 rows: at grid
  point t its body receives rows 2000·t … 2000·t + 1999 of x₁ and x₂ and the five parameter arrays whole, and its
  result block is written back to the same rows of the output. On the extended reals a change of float format is
  the identity and a matrix product into a zero accumulator is the plain sum over the contracted coordinate, as is
  the reference's product; so entry (p, q) of the body's block at point t and entry (2000·t + p, q) of the
  reference's stage are the same expression, the blend of that row. The fifty blocks tile the output array, so
  after the last grid point the array is the reference's stage. No entry needs to be finite: the two sides are
  the same operations in the same order, entry by entry.
-/
import proofs.«135634_j90752658964688_1_alg».proof.Proof.Gen.KernelIdeal.Frame
import proofs.«135634_j90752658964688_1_alg».proof.Proof.Gen.ReferenceIdeal.Read
import proofs.«135634_j90752658964688_1_alg».proof.Proof.LibPlainDot
import Idealize.ShloMosaic.Lib.ValueLayout

set_option maxRecDepth 16384

noncomputable section

namespace Cert.KernelIdeal.Stage0

open Idealize.ShloMosaic Idealize.ShloMosaic.TcCoe Idealize.SL.Sem
open Cert.KernelIdeal Cert.KernelIdeal.Gen
open Idealize.ShloMosaic.ValueIdx
open scoped BigOperators

/-! ## The blend of one row

Row P of the stage's result depends on row P of the two feature matrices only. Write r₁ (512 entries) and r₂
(128 entries) for those rows. The two linear maps give, at hidden coordinate k,
  h₁(k) = (∑ j, r₁(j)·W₁(j,k)) + b₁(k)   and   h₂(k) = (∑ j, r₂(j)·W₂(j,k)) + b₂(k),
they are blended with the two fixed weights c₁, c₂ (kept as their float32 words, never evaluated), and the blend
is carried through the graph layer's matrix: entry q of the result row is ∑ k, (c₁·h₁(k) + c₂·h₂(k))·Wg(k,q). -/

/-- Entry q of the result row, from the two feature rows and the five parameter arrays. -/
def rowBlend (r₁ : Fin 512 → EReal) (r₂ : Fin 128 → EReal)
    (W₁ : FVec Ideal S512x128 .f32) (b₁ : FVec Ideal S128 .f32)
    (W₂ : FVec Ideal S128x128 .f32) (b₂ : FVec Ideal S128 .f32)
    (Wg : FVec Ideal S128x128 .f32) (q : Fin 128) : EReal :=
  ∑ k : Fin 128,
    (Ideal.ofBits .f32 0x3F4CCCCD#32 * ((∑ j : Fin 512, r₁ j * W₁ (ix2 j k)) + b₁ (ix1 k))
      + Ideal.ofBits .f32 0x3E4CCCCD#32 * ((∑ j : Fin 128, r₂ j * W₂ (ix2 j k)) + b₂ (ix1 k)))
      * Wg (ix2 k q)

/-! ## The kernel body's value at one entry of its block

Every operation of the body but three reads one entry of each operand at the entry it writes, and a change of
float format is the identity on the extended reals. The three products into a zero accumulator are plain sums
over the contracted coordinate, and a bias vector [128], cast to a row [1,128] and repeated down the 2000 rows,
reads the vector at the column. -/

/-- The [2000,512]·[512,128] product into the zero accumulator, at entry (p, k). -/
theorem product_512 (lhs : FVec Ideal S2000x512 .bf16) (rhs : FVec Ideal S512x128 .bf16) (p : Fin 2000) (k : Fin 128) :
    matmul dot_S2000x512_S512x128_S2000x128_1_0_0_1_n_n none lhs rhs (constant (F := Ideal) S2000x128 .f32 0x00000000#32) (ix2 p k)
      = ∑ j : Fin 512, lhs (ix2 p j) * rhs (ix2 j k) :=
  Cert.LibPlainDot.matmul_zero_apply (M := 2000) (K := 512) (N := 128) none lhs rhs p k

/-- The [2000,128]·[128,128] product into the zero accumulator, at entry (p, k). -/
theorem product_128 (lhs : FVec Ideal S2000x128 .bf16) (rhs : FVec Ideal S128x128 .bf16) (p : Fin 2000) (k : Fin 128) :
    matmul dot_S2000x128_S128x128_S2000x128_1_0_0_1_n_n none lhs rhs (constant (F := Ideal) S2000x128 .f32 0x00000000#32) (ix2 p k)
      = ∑ j : Fin 128, lhs (ix2 p j) * rhs (ix2 j k) :=
  Cert.LibPlainDot.matmul_zero_apply (M := 2000) (K := 128) (N := 128) none lhs rhs p k

/-- A bias vector as a row repeated down the block: entry (p, k) is the vector's entry k. -/
theorem bias_rows (b : FVec Ideal S128 .f32) (h₁ : S128.ShapeCasts S1x128) (h₂ : S1x128.Broadcasts S2000x128)
    (p : Fin 2000) (k : Fin 128) :
    broadcastTo S2000x128 (shapeCast S1x128 b h₁) h₂ (ix2 p k) = b (ix1 k) :=
  (broadcastTo_1b_ab_apply (shapeCast S1x128 b h₁) h₂ p k).trans (shapeCast_a_1a_apply b h₁ 0 k)

/-- The body's stored value at entry (p, q) of its block is the blend of row p of its two feature blocks. -/
theorem body_apply (v0 : Vec Ideal S2000x512 .f32) (v2 : Vec Ideal S2000x128 .f32) (v4 : Vec Ideal S512x128 .f32)
    (v6 v8 : Vec Ideal S128x128 .f32) (v11 v16 : Vec Ideal S128 .f32) (p : Fin 2000) (q : Fin 128) :
    k0_pay1 (F := Ideal) v0 v2 v4 v6 v8 v11 v16 (ix2 p q)
      = rowBlend (fun j => v0 (ix2 p j)) (fun j => v2 (ix2 p j)) v4 v11 v6 v16 v8 q := by
  unfold k0_pay1 rowBlend
  refine (product_128 _ _ p q).trans ?_
  refine Finset.sum_congr rfl fun k _ => ?_
  refine congrArg (fun a : EReal => a * v8 (ix2 k q)) ?_
  refine congrArg₂ (fun a b : EReal => Ideal.ofBits .f32 0x3F4CCCCD#32 * a + Ideal.ofBits .f32 0x3E4CCCCD#32 * b) ?_ ?_
  · exact congrArg₂ (fun a b : EReal => a + b) (product_512 _ _ p k) (bias_rows v11 _ _ p k)
  · exact congrArg₂ (fun a b : EReal => a + b) (product_128 _ _ p k) (bias_rows v16 _ _ p k)

/-! ## The reference's stage at one entry

The reference computes the same stage on the whole arrays: two `dot_general`s with the bias rows added, the two
products by the broadcast scalars, their sum, and a last `dot_general` with the layer's matrix. Read one operation
at a time at entry (P, q), each reads its operands at (P, ·), (·, q) or the column, which is the blend of row P. -/

/-- The reference's stage at entry (P, q) is the blend of row P of the two feature matrices. -/
theorem reference_apply (x0 : Vec Ideal S100000x512 .f32) (x1 : Vec Ideal S100000x128 .f32) (x3 : Vec Ideal S512x128 .f32)
    (x4 : Vec Ideal S128 .f32) (x5 : Vec Ideal S128x128 .f32) (x6 : Vec Ideal S128 .f32) (x7 : Vec Ideal S128x128 .f32)
    (P : Fin 100000) (q : Fin 128) :
    Cert.ReferenceIdeal.Read.val_main_v17 (F := Ideal) x0 x1 x3 x4 x5 x6 x7 (ix2 P q)
      = rowBlend (fun j => x0 (ix2 P j)) (fun j => x1 (ix2 P j)) x3 x4 x5 x6 x7 q := by
  unfold rowBlend
  rw [Cert.ReferenceIdeal.Read.val_main_v17_apply]
  refine Finset.sum_congr rfl fun k _ => ?_
  -- the last product reads its left operand at (P, k) and the layer's matrix at (k, q)
  have e17l : Cert.ReferenceIdeal.Read.lidx_main_v17 (ix2 P q) k = ix2 P k :=
    funext fun a => Fin.ext (by match a with | ⟨0, _⟩ => rfl | ⟨1, _⟩ => rfl)
  have e17r : Cert.ReferenceIdeal.Read.ridx_main_v17 (ix2 P q) k = ix2 k q :=
    funext fun a => Fin.ext (by match a with | ⟨0, _⟩ => rfl | ⟨1, _⟩ => rfl)
  -- a bias row repeated down the array reads the vector at the column k
  have e2 : Cert.ReferenceIdeal.Read.idx_main_v1 (Cert.ReferenceIdeal.Read.idx_main_v2 (ix2 P k)) = ix1 k :=
    funext fun a => Fin.ext (by match a with | ⟨0, _⟩ => rfl)
  have e8 : Cert.ReferenceIdeal.Read.idx_main_v7 (Cert.ReferenceIdeal.Read.idx_main_v8 (ix2 P k)) = ix1 k :=
    funext fun a => Fin.ext (by match a with | ⟨0, _⟩ => rfl)
  rw [e17l, e17r, Cert.ReferenceIdeal.Read.val_main_v12_apply, Cert.ReferenceIdeal.Read.val_main_v5_apply,
    Cert.ReferenceIdeal.Read.val_main_v4_apply, Cert.ReferenceIdeal.Read.val_main_cst_apply,
    Cert.ReferenceIdeal.Read.val_main_v3_apply, Cert.ReferenceIdeal.Read.val_main_v0_apply,
    Cert.ReferenceIdeal.Read.val_main_v2_apply, Cert.ReferenceIdeal.Read.val_main_v1_apply, e2,
    Cert.ReferenceIdeal.Read.val_main_v11_apply, Cert.ReferenceIdeal.Read.val_main_v10_apply,
    Cert.ReferenceIdeal.Read.val_main_cst_0_apply, Cert.ReferenceIdeal.Read.val_main_v9_apply,
    Cert.ReferenceIdeal.Read.val_main_v6_apply, Cert.ReferenceIdeal.Read.val_main_v8_apply,
    Cert.ReferenceIdeal.Read.val_main_v7_apply, e8]
  refine congrArg (fun a : EReal => a * x7 (ix2 k q)) ?_
  refine congrArg₂ (fun a b : EReal => Ideal.ofBits .f32 0x3F4CCCCD#32 * a + Ideal.ofBits .f32 0x3E4CCCCD#32 * b) ?_ ?_
  · refine congrArg (fun a : EReal => a + x4 (ix1 k)) (Finset.sum_congr rfl fun j _ => ?_)
    have el : Cert.ReferenceIdeal.Read.lidx_main_v0 (ix2 P k) j = ix2 P j :=
      funext fun a => Fin.ext (by match a with | ⟨0, _⟩ => rfl | ⟨1, _⟩ => rfl)
    have er : Cert.ReferenceIdeal.Read.ridx_main_v0 (ix2 P k) j = ix2 j k :=
      funext fun a => Fin.ext (by match a with | ⟨0, _⟩ => rfl | ⟨1, _⟩ => rfl)
    rw [el, er]
  · refine congrArg (fun a : EReal => a + x6 (ix1 k)) (Finset.sum_congr rfl fun j _ => ?_)
    have el : Cert.ReferenceIdeal.Read.lidx_main_v6 (ix2 P k) j = ix2 P j :=
      funext fun a => Fin.ext (by match a with | ⟨0, _⟩ => rfl | ⟨1, _⟩ => rfl)
    have er : Cert.ReferenceIdeal.Read.ridx_main_v6 (ix2 P k) j = ix2 j k :=
      funext fun a => Fin.ext (by match a with | ⟨0, _⟩ => rfl | ⟨1, _⟩ => rfl)
    rw [el, er]

/-! ## What grid point t writes back

At point t the pipeline hands the body rows 2000·t … 2000·t + 1999 of the two feature matrices and the five
parameter arrays whole, and writes the body's block back to the same rows of the output. A block's entry sits in
its array at (block index)·(block size) + its coordinate inside the block, on every axis; the block indices are
read off the index maps once, over the whole grid. -/

variable (V : (c : Dev nD) → (b : Ref sig .tc) → Buf (Elt Ideal) ((c : Thread nD τ).loc b))

theorem zero_offsets₂ : (![0, 0] : Fin 2 → Nat) = fun _ => 0 := funext fun a => by fin_cases a <;> rfl
theorem zero_offsets₁ : (![0] : Fin 1 → Nat) = fun _ => 0 := funext fun a => by fin_cases a <;> rfl

/-- The block indices at every grid point: the row-tiled windows (the two feature matrices and the output) are at
    row block t and column block 0, the parameter windows at block 0. -/
theorem block_indices : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

/-- The first feature matrix's block at point t is its rows from 2000·t on. -/
theorem x1_block (c : Dev nD) (t : Fin cfg0.N) (p : Fin 2000) (j : Fin 512) (P : Fin 100000) (hP : P.val = 2000 * t.val + p.val) :
    (iblk0 V c 0 t : Vec Ideal S2000x512 .f32) (ix2 p j) = (V c main_arg0 : Vec Ideal S100000x512 .f32) (ix2 P j) := by
  obtain ⟨e, e', -⟩ := block_indices t
  unfold iblk0
  rw [View.read_apply]
  show V c main_arg0 (((cfg0.win 0).blk t).view.emb (ix2 p j)) = V c main_arg0 (ix2 P j)
  refine congrArg (V c main_arg0) (funext fun a => Fin.ext ?_)
  match a with
  | ⟨0, _⟩ => show win0_0.index t (0 : Fin 2) * 2000 + 1 * p.val = P.val; rw [e, hP]; omega
  | ⟨1, _⟩ => show win0_0.index t (1 : Fin 2) * 512 + 1 * j.val = j.val; rw [e']; omega

/-- The second feature matrix's block at point t is its rows from 2000·t on. -/
theorem x2_block (c : Dev nD) (t : Fin cfg0.N) (p : Fin 2000) (j : Fin 128) (P : Fin 100000) (hP : P.val = 2000 * t.val + p.val) :
    (iblk0 V c 1 t : Vec Ideal S2000x128 .f32) (ix2 p j) = (V c main_arg1 : Vec Ideal S100000x128 .f32) (ix2 P j) := by
  obtain ⟨-, -, e, e', -⟩ := block_indices t
  unfold iblk0
  rw [View.read_apply]
  show V c main_arg1 (((cfg0.win 1).blk t).view.emb (ix2 p j)) = V c main_arg1 (ix2 P j)
  refine congrArg (V c main_arg1) (funext fun a => Fin.ext ?_)
  match a with
  | ⟨0, _⟩ => show win0_1.index t (0 : Fin 2) * 2000 + 1 * p.val = P.val; rw [e, hP]; omega
  | ⟨1, _⟩ => show win0_1.index t (1 : Fin 2) * 128 + 1 * j.val = j.val; rw [e']; omega

/-- The first linear map's matrix is handed whole at every point. -/
theorem W1_block (c : Dev nD) (t : Fin cfg0.N) :
    (iblk0 V c 2 t : Vec Ideal S512x128 .f32) = (V c main_arg3 : Vec Ideal S512x128 .f32) := by
  obtain ⟨-, -, -, -, e, e', -⟩ := block_indices t
  funext y
  unfold iblk0
  rw [View.read_apply]
  show V c main_arg3 (((cfg0.win 2).blk t).view.emb y) = V c main_arg3 y
  refine congrArg (V c main_arg3) (funext fun a => Fin.ext ?_)
  match a with
  | ⟨0, _⟩ => show win0_2.index t (0 : Fin 2) * 512 + 1 * (y 0).val = (y 0).val; rw [e]; omega
  | ⟨1, _⟩ => show win0_2.index t (1 : Fin 2) * 128 + 1 * (y 1).val = (y 1).val; rw [e']; omega

/-- The first bias vector is handed whole at every point. -/
theorem b1_block (c : Dev nD) (t : Fin cfg0.N) :
    (iblk0 V c 3 t : Vec Ideal S128 .f32) = (V c main_arg4 : Vec Ideal S128 .f32) := by
  obtain ⟨-, -, -, -, -, -, e, -⟩ := block_indices t
  funext y
  unfold iblk0
  rw [View.read_apply]
  show V c main_arg4 (((cfg0.win 3).blk t).view.emb y) = V c main_arg4 y
  refine congrArg (V c main_arg4) (funext fun a => Fin.ext ?_)
  match a with
  | ⟨0, _⟩ => show win0_3.index t (0 : Fin 1) * 128 + 1 * (y 0).val = (y 0).val; rw [e]; omega

/-- The second linear map's matrix is handed whole at every point. -/
theorem W2_block (c : Dev nD) (t : Fin cfg0.N) :
    (iblk0 V c 4 t : Vec Ideal S128x128 .f32) = (V c main_arg5 : Vec Ideal S128x128 .f32) := by
  obtain ⟨-, -, -, -, -, -, -, e, e', -⟩ := block_indices t
  funext y
  unfold iblk0
  rw [View.read_apply]
  show V c main_arg5 (((cfg0.win 4).blk t).view.emb y) = V c main_arg5 y
  refine congrArg (V c main_arg5) (funext fun a => Fin.ext ?_)
  match a with
  | ⟨0, _⟩ => show win0_4.index t (0 : Fin 2) * 128 + 1 * (y 0).val = (y 0).val; rw [e]; omega
  | ⟨1, _⟩ => show win0_4.index t (1 : Fin 2) * 128 + 1 * (y 1).val = (y 1).val; rw [e']; omega

/-- The second bias vector is handed whole at every point. -/
theorem b2_block (c : Dev nD) (t : Fin cfg0.N) :
    (iblk0 V c 5 t : Vec Ideal S128 .f32) = (V c main_arg6 : Vec Ideal S128 .f32) := by
  obtain ⟨-, -, -, -, -, -, -, -, -, e, -⟩ := block_indices t
  funext y
  unfold iblk0
  rw [View.read_apply]
  show V c main_arg6 (((cfg0.win 5).blk t).view.emb y) = V c main_arg6 y
  refine congrArg (V c main_arg6) (funext fun a => Fin.ext ?_)
  match a with
  | ⟨0, _⟩ => show win0_5.index t (0 : Fin 1) * 128 + 1 * (y 0).val = (y 0).val; rw [e]; omega

/-- The graph layer's matrix is handed whole at every point. -/
theorem Wg_block (c : Dev nD) (t : Fin cfg0.N) :
    (iblk0 V c 6 t : Vec Ideal S128x128 .f32) = (V c main_arg7 : Vec Ideal S128x128 .f32) := by
  obtain ⟨-, -, -, -, -, -, -, -, -, -, e, e', -⟩ := block_indices t
  funext y
  unfold iblk0
  rw [View.read_apply]
  show V c main_arg7 (((cfg0.win 6).blk t).view.emb y) = V c main_arg7 y
  refine congrArg (V c main_arg7) (funext fun a => Fin.ext ?_)
  match a with
  | ⟨0, _⟩ => show win0_6.index t (0 : Fin 2) * 128 + 1 * (y 0).val = (y 0).val; rw [e]; omega
  | ⟨1, _⟩ => show win0_6.index t (1 : Fin 2) * 128 + 1 * (y 1).val = (y 1).val; rw [e']; omega

/-- The body on blocks that are rows R … R + 1999 of the feature matrices and the parameter arrays whole computes,
    at entry (p, q), the reference's stage at entry (R + p, q): both are the blend of that row. -/
theorem body_on_row_blocks
    (x0 : Vec Ideal S100000x512 .f32) (x1 : Vec Ideal S100000x128 .f32) (x3 : Vec Ideal S512x128 .f32)
    (x4 : Vec Ideal S128 .f32) (x5 : Vec Ideal S128x128 .f32) (x6 : Vec Ideal S128 .f32) (x7 : Vec Ideal S128x128 .f32)
    (v0 : Vec Ideal S2000x512 .f32) (v2 : Vec Ideal S2000x128 .f32) (v4 : Vec Ideal S512x128 .f32)
    (v6 v8 : Vec Ideal S128x128 .f32) (v11 v16 : Vec Ideal S128 .f32)
    (p : Fin 2000) (q : Fin 128) (P : Fin 100000)
    (h0 : ∀ j : Fin 512, v0 (ix2 p j) = x0 (ix2 P j)) (h2 : ∀ j : Fin 128, v2 (ix2 p j) = x1 (ix2 P j))
    (h4 : v4 = x3) (h6 : v6 = x5) (h8 : v8 = x7) (h11 : v11 = x4) (h16 : v16 = x6) :
    k0_pay1 (F := Ideal) v0 v2 v4 v6 v8 v11 v16 (ix2 p q)
      = Cert.ReferenceIdeal.Read.val_main_v17 (F := Ideal) x0 x1 x3 x4 x5 x6 x7 (ix2 P q) := by
  rw [body_apply, reference_apply, h4, h6, h8, h11, h16, funext h0, funext h2]

/-- WHAT POINT t WRITES BACK is block t of the reference's stage of the arrays the region finds. -/
theorem flushed_eq (c : Dev nD) (t : Fin cfg0.N) :
    (dat0 (F := Ideal) V c).flushed 7 t
      = ((cfg0.win 7).blk t).view.read (Elt Ideal)
          (Cert.ReferenceIdeal.Read.val_main_v17 (F := Ideal) (V c main_arg0) (V c main_arg1) (V c main_arg3) (V c main_arg4)
            (V c main_arg5) (V c main_arg6) (V c main_arg7)) := by
  show (cfg0.win 7).cut (grid0.coords t) ((dat0 (F := Ideal) V c).after 7 t) = _
  rw [after0_7]
  unfold out0_7
  rw [View.canon_unit_zero zero_offsets₂]
  simp only [View.ld_unit_zero (S := S2000x512) zero_offsets₂, View.ld_unit_zero (S := S2000x128) zero_offsets₂,
    View.ld_unit_zero (S := S512x128) zero_offsets₂, View.ld_unit_zero (S := S128x128) zero_offsets₂,
    View.ld_unit_zero (S := S128) zero_offsets₁]
  have hN : cfg0.N = 50 := N_0
  have ht : t.val < 50 := hN ▸ t.isLt
  obtain ⟨-, -, -, -, -, -, -, -, -, -, -, -, e, e'⟩ := block_indices t
  refine funext fun (y : S2000x128.Idx) => ?_
  obtain ⟨p, q, rfl⟩ : ∃ (p : Fin 2000) (q : Fin 128), y = ix2 p q := ⟨y 0, y 1, eq_ix2 y⟩
  have hp : 2000 * t.val + p.val < 100000 := by have := p.isLt; omega
  show k0_pay1 (F := Ideal) (iblk0 V c 0 t) (iblk0 V c 1 t) (iblk0 V c 2 t) (iblk0 V c 4 t) (iblk0 V c 6 t) (iblk0 V c 3 t) (iblk0 V c 5 t) (ix2 p q)
      = Cert.ReferenceIdeal.Read.val_main_v17 (F := Ideal) (V c main_arg0) (V c main_arg1) (V c main_arg3) (V c main_arg4)
          (V c main_arg5) (V c main_arg6) (V c main_arg7) (((cfg0.win 7).blk t).view.emb (ix2 p q))
  have hemb : ((cfg0.win 7).blk t).view.emb (ix2 p q) = ix2 (⟨2000 * t.val + p.val, hp⟩ : Fin 100000) q :=
    funext fun a => Fin.ext (by
      match a with
      | ⟨0, _⟩ => show win0_7.index t (0 : Fin 2) * 2000 + 1 * p.val = 2000 * t.val + p.val; rw [e]; omega
      | ⟨1, _⟩ => show win0_7.index t (1 : Fin 2) * 128 + 1 * q.val = q.val; rw [e']; omega)
  rw [hemb]
  exact body_on_row_blocks (V c main_arg0) (V c main_arg1) (V c main_arg3) (V c main_arg4) (V c main_arg5) (V c main_arg6) (V c main_arg7)
    (iblk0 V c 0 t) (iblk0 V c 1 t) (iblk0 V c 2 t) (iblk0 V c 4 t) (iblk0 V c 6 t) (iblk0 V c 3 t) (iblk0 V c 5 t)
    p q ⟨2000 * t.val + p.val, hp⟩
    (fun j => x1_block V c t p j _ rfl) (fun j => x2_block V c t p j _ rfl)
    (W1_block V c t) (W2_block V c t) (Wg_block V c t) (b1_block V c t) (b2_block V c t)

/-! ## From the blocks to the array

The output's blocks are the fifty runs of 2000 consecutive rows, all 128 columns: row r of the array lies in the
block of grid point r / 2000, and every point writes its block back. So every entry of the array is written, each
with the reference's value there, and the array after the last point is the reference's stage. -/

/-- An entry of the output array is in point t's block iff, on each axis, its coordinate lies in the block's run. -/
theorem mem_block (t : Fin cfg0.N) (i : S100000x128.Idx) :
    i ∈ ((cfg0.win 7).blk t).view.set
      ↔ ∀ a : Fin 2, win0_7.index t a * S2000x128.size a ≤ (i a).val
          ∧ (i a).val < win0_7.index t a * S2000x128.size a + S2000x128.size a := by
  show i ∈ ((View.whole main_v0).slice (win0_7.rect t)).set ↔ _
  rw [View.set_slice_whole, Rect.mem_set_unit]
  exact Iff.rfl

/-- Every entry of the output array is in the block of a point that writes back: the point (row / 2000). -/
theorem covered (i : S100000x128.Idx) :
    ∃ t : Fin cfg0.N, (cfg0.win 7).flush t = true ∧ i ∈ ((cfg0.win 7).blk t).view.set := by
  have hN : cfg0.N = 50 := N_0
  have h0 : (i 0).val < 100000 := (i 0).isLt
  have h1 : (i 1).val < 128 := (i 1).isLt
  obtain ⟨t, ht⟩ : ∃ t : Fin cfg0.N, t.val = (i 0).val / 2000 := ⟨⟨(i 0).val / 2000, by rw [hN]; omega⟩, rfl⟩
  obtain ⟨-, -, -, -, -, -, -, -, -, -, -, -, e, e'⟩ := block_indices t
  refine ⟨t, flush0_7 t, ?_⟩
  rw [mem_block]
  intro a
  match a with
  | ⟨0, _⟩ =>
    show win0_7.index t (0 : Fin 2) * 2000 ≤ (i 0).val ∧ (i 0).val < win0_7.index t (0 : Fin 2) * 2000 + 2000
    rw [e, ht]; omega
  | ⟨1, _⟩ =>
    show win0_7.index t (1 : Fin 2) * 128 ≤ (i 1).val ∧ (i 1).val < win0_7.index t (1 : Fin 2) * 128 + 128
    rw [e']; omega

/-- THE OUTPUT ARRAY of the first kernel call, after all fifty grid points, is the reference's stage
    dot_general(c₁·(dot_general(x1, W1) + b1) + c₂·(dot_general(x2, W2) + b2), Wg1) of the arrays the call finds at
    its operands, whatever they hold. -/
theorem region0_array (V : (c : Dev nD) → (b : Ref sig .tc) → Buf (Elt Ideal) ((c : Thread nD τ).loc b)) (c : Dev nD) :
    (dat0 (F := Ideal) V c).arrAt 7 cfg0.N
      = Cert.ReferenceIdeal.Read.val_main_v17 (F := Ideal) (V c main_arg0) (V c main_arg1) (V c main_arg3) (V c main_arg4)
          (V c main_arg5) (V c main_arg6) (V c main_arg7) :=
  (dat0 (F := Ideal) V c).arrAt_eq_of_cover 7
    (Cert.ReferenceIdeal.Read.val_main_v17 (F := Ideal) (V c main_arg0) (V c main_arg1) (V c main_arg3) (V c main_arg4)
      (V c main_arg5) (V c main_arg6) (V c main_arg7))
    (fun t _ => flushed_eq V c t) covered

end Cert.KernelIdeal.Stage0

end
-- ==== Proof.Stage1.lean ====
/-
  The second kernel region of the layer, as one function of the arrays it is entered with.

  The region runs over 50 grid points. Point t loads rows 2000·t … 2000·t + 1999 of the aggregated activations
  (128 columns), the four per-column vectors gamma, beta, running mean, running variance (128 entries each) and the
  whole [128,64] weight matrix, and stores rows 2000·t … of the output (64 columns):

      out(P, q) = ∑_{k<128} max((agg(P,k) − rmean(k)) · rsqrt(rvar(k) + ε) · gamma(k) + beta(k), 0) · W(k, q).

  The reference computes the same sum on the whole arrays: it subtracts, scales, shifts and clamps the [100000,128]
  array against the vectors repeated down the rows, then takes one whole-array product with W. On the extended reals
  the two apply the same operations in the same order at every entry, the constants ε and 0 being the same words on
  both sides, so nothing is evaluated and no finiteness is needed.

  The file has four parts: the body's stored value at one entry of its block; the reference's last stage at one
  entry of the array, in terms of its earlier stage; what one grid point writes back, as a block of the reference's
  stage; and the cover of the output array by the 50 blocks, which gives the array after the region.
-/
import proofs.«135634_j90752658964688_1_alg».proof.Proof.Gen.KernelIdeal.Frame
import proofs.«135634_j90752658964688_1_alg».proof.Proof.Gen.ReferenceIdeal.Read
import proofs.«135634_j90752658964688_1_alg».proof.Proof.LibPlainDot
import Idealize.ShloMosaic.Lib.ValueLayout
set_option maxRecDepth 16384
noncomputable section
namespace Cert.KernelIdeal.Stage1
open Idealize.ShloMosaic Idealize.ShloMosaic.TcCoe Idealize.SL.Sem
open Cert.KernelIdeal Cert.KernelIdeal.Gen
open Idealize.ShloMosaic.ValueIdx
open scoped BigOperators

/-! ## The body's stored value at an entry of its block -/

/-- One normalized, scaled, shifted and clamped activation:
    max((a − rmean) · rsqrt(rvar + ε) · gamma + beta, 0), with ε and 0 kept as the words that denote them. -/
def act (a rvar rmean gamma beta : EReal) : EReal :=
  max ((a - rmean) * Ideal.rsqrt (rvar + Ideal.ofBits .f32 0x3727C5AC#32) * gamma + beta) (Ideal.ofBits .f32 0x00000000#32)

/-- The reciprocal square root of a vector, read at an index, is the reciprocal square root of the element. -/
theorem rsqrt_apply {s : Shape} {φ : FTy} (a : FVec Ideal s φ) (i : s.Idx) : rsqrt a i = Ideal.rsqrt (a i) := rfl

/-- The [2000,128] by [128,64] product into a zero accumulator: entry (p, q) is the sum over k of lhs(p,k) · rhs(k,q). -/
theorem matmul_out (lhs : FVec Ideal S2000x128 .bf16) (rhs : FVec Ideal S128x64 .bf16) (p : Fin 2000) (q : Fin 64) :
    matmul dot_S2000x128_S128x64_S2000x64_1_0_0_1_n_n none lhs rhs (constant (F := Ideal) S2000x64 .f32 0x00000000#32) (ix2 p q)
      = ∑ k : Fin 128, lhs (ix2 p k) * rhs (ix2 k q) :=
  Cert.LibPlainDot.matmul_zero_apply none lhs rhs p q

/-- The body's stored value at entry (p, q) of its block: the sum over k of the activation of the block's entry (p, k)
    (with the k-th entries of the four per-column vectors) times the weight (k, q). The product's summand is a chain of
    pointwise operations; the per-column vectors enter as one row [1,128] broadcast over the 2000 rows, and the
    reciprocal square root is taken on that row before the broadcast, so at (p, k) it is read at (0, k). -/
theorem pay_apply (v0 : Vec Ideal S2000x128 .f32) (v2 v7 v13 v17 : Vec Ideal S128 .f32) (v23 : Vec Ideal S128x64 .f32)
    (p : Fin 2000) (q : Fin 64) :
    k1_pay1 (F := Ideal) v0 v2 v7 v13 v17 v23 (ix2 p q)
      = ∑ k : Fin 128, act (v0 (ix2 p k)) (v2 (ix1 k)) (v7 (ix1 k)) (v13 (ix1 k)) (v17 (ix1 k)) * v23 (ix2 k q) := by
  unfold k1_pay1
  rw [matmul_out]
  refine Finset.sum_congr rfl fun k _ => ?_
  rw [truncf_apply, truncf_apply, maximumf_apply, addf_apply, mulf_apply, mulf_apply, subf_apply, shapeCast_self]
  rw [broadcastTo_1b_ab_apply, broadcastTo_1b_ab_apply, broadcastTo_1b_ab_apply, broadcastTo_1b_ab_apply]
  rw [shapeCast_a_1a_apply, shapeCast_a_1a_apply, shapeCast_a_1a_apply]
  rw [rsqrt_apply, addf_apply, shapeCast_a_1a_apply, broadcast_apply, broadcast_apply]
  rfl

/-! ## The reference's last stage at an entry of the array -/

/-- The reference's last stage at entry (P, q): the whole-array product's summand at k is the activation of the
    earlier stage's entry (P, k) with the k-th entries of rvar, rmean, gamma, beta, times the weight (k, q). The
    reference forms each per-column term on the [128] vector, makes it a [1,128] row and repeats the row down the
    100000 rows, so every such term at (P, k) is read at k. -/
theorem ref_apply (x0 : S100000x512.Idx → EReal) (x1 : S100000x128.Idx → EReal) (x2 : S2x1600000.Idx → BitVec 32)
    (x3 : S512x128.Idx → EReal) (x4 : S128.Idx → EReal) (x5 : S128x128.Idx → EReal) (x6 : S128.Idx → EReal)
    (x7 : S128x128.Idx → EReal) (x8 : S128.Idx → EReal) (x9 : S128x64.Idx → EReal) (x11 x12 x13 x14 : S128.Idx → EReal)
    (P : Fin 100000) (q : Fin 64) :
    Cert.ReferenceIdeal.Read.val_main_v47 (F := Ideal) x0 x1 x2 x3 x4 x5 x6 x7 x8 x9 x11 x12 x13 x14 (ix2 P q)
      = ∑ k : Fin 128, act (Cert.ReferenceIdeal.Read.val_main_v30 (F := Ideal) x0 x1 x2 x3 x4 x5 x6 x7 x8 (ix2 P k))
          (x14 (ix1 k)) (x13 (ix1 k)) (x11 (ix1 k)) (x12 (ix1 k)) * x9 (ix2 k q) := by
  rw [Cert.ReferenceIdeal.Read.val_main_v47_apply]
  refine Finset.sum_congr rfl fun k _ => ?_
  -- the product reads its left operand at (P, k) and its right operand at (k, q)
  have el : Cert.ReferenceIdeal.Read.lidx_main_v47 (ix2 P q) k = ix2 P k :=
    funext fun a => Fin.ext (by match a with | ⟨0, _⟩ => rfl | ⟨1, _⟩ => rfl)
  have er : Cert.ReferenceIdeal.Read.ridx_main_v47 (ix2 P q) k = ix2 k q :=
    funext fun a => Fin.ext (by match a with | ⟨0, _⟩ => rfl | ⟨1, _⟩ => rfl)
  -- a row repeated down the rows is read at (0, k), and the row made from a vector at k
  have e32 : Cert.ReferenceIdeal.Read.idx_main_v32 (ix2 P k) = ix2 (0 : Fin 1) k :=
    funext fun a => Fin.ext (by match a with | ⟨0, _⟩ => rfl | ⟨1, _⟩ => rfl)
  have e38 : Cert.ReferenceIdeal.Read.idx_main_v38 (ix2 P k) = ix2 (0 : Fin 1) k :=
    funext fun a => Fin.ext (by match a with | ⟨0, _⟩ => rfl | ⟨1, _⟩ => rfl)
  have e41 : Cert.ReferenceIdeal.Read.idx_main_v41 (ix2 P k) = ix2 (0 : Fin 1) k :=
    funext fun a => Fin.ext (by match a with | ⟨0, _⟩ => rfl | ⟨1, _⟩ => rfl)
  have e44 : Cert.ReferenceIdeal.Read.idx_main_v44 (ix2 P k) = ix2 (0 : Fin 1) k :=
    funext fun a => Fin.ext (by match a with | ⟨0, _⟩ => rfl | ⟨1, _⟩ => rfl)
  have e31 : Cert.ReferenceIdeal.Read.idx_main_v31 (ix2 (0 : Fin 1) k) = ix1 k :=
    funext fun a => Fin.ext (by match a with | ⟨0, _⟩ => rfl)
  have e37 : Cert.ReferenceIdeal.Read.idx_main_v37 (ix2 (0 : Fin 1) k) = ix1 k :=
    funext fun a => Fin.ext (by match a with | ⟨0, _⟩ => rfl)
  have e40 : Cert.ReferenceIdeal.Read.idx_main_v40 (ix2 (0 : Fin 1) k) = ix1 k :=
    funext fun a => Fin.ext (by match a with | ⟨0, _⟩ => rfl)
  have e43 : Cert.ReferenceIdeal.Read.idx_main_v43 (ix2 (0 : Fin 1) k) = ix1 k :=
    funext fun a => Fin.ext (by match a with | ⟨0, _⟩ => rfl)
  rw [el, er, Cert.ReferenceIdeal.Read.val_main_v46_apply, Cert.ReferenceIdeal.Read.val_main_call0_v0_apply, Cert.ReferenceIdeal.Read.val_main_call0_cst_apply,
    Cert.ReferenceIdeal.Read.val_main_v45_apply, Cert.ReferenceIdeal.Read.val_main_v44_apply, e44, Cert.ReferenceIdeal.Read.val_main_v43_apply, e43,
    Cert.ReferenceIdeal.Read.val_main_v42_apply, Cert.ReferenceIdeal.Read.val_main_v41_apply, e41, Cert.ReferenceIdeal.Read.val_main_v40_apply, e40,
    Cert.ReferenceIdeal.Read.val_main_v39_apply, Cert.ReferenceIdeal.Read.val_main_v38_apply, e38, Cert.ReferenceIdeal.Read.val_main_v37_apply, e37,
    Cert.ReferenceIdeal.Read.val_main_v36_apply, Cert.ReferenceIdeal.Read.val_main_v35_apply, Cert.ReferenceIdeal.Read.val_main_v34_apply, Cert.ReferenceIdeal.Read.val_main_cst_3_apply,
    Cert.ReferenceIdeal.Read.val_main_v33_apply, Cert.ReferenceIdeal.Read.val_main_v32_apply, e32, Cert.ReferenceIdeal.Read.val_main_v31_apply, e31]
  rfl

/-! ## What one grid point writes back -/

/-- The zero offsets of a rank-2 whole-buffer rectangle, however spelt, are the zero function. -/
theorem hz2 : (![0, 0] : Fin 2 → Nat) = fun _ => 0 := funext fun a => by fin_cases a <;> rfl
/-- The zero offset of a rank-1 whole-buffer rectangle. -/
theorem hz1 : (![0] : Fin 1 → Nat) = fun _ => 0 := funext fun a => by fin_cases a; rfl

/-- The block indices of the seven windows at grid point t, decided once over the 50 points: the activations' and the
    output's blocks are at row-block t, column-block 0; every other window is at block 0 on each axis. -/
theorem idx_facts : ∀ t : Fin cfg1.N,
    win1_0.index t (0 : Fin 2) = t.val ∧ win1_0.index t (1 : Fin 2) = 0
    ∧ win1_1.index t (0 : Fin 1) = 0 ∧ win1_2.index t (0 : Fin 1) = 0
    ∧ win1_3.index t (0 : Fin 1) = 0 ∧ win1_4.index t (0 : Fin 1) = 0
    ∧ win1_5.index t (0 : Fin 2) = 0 ∧ win1_5.index t (1 : Fin 2) = 0
    ∧ win1_6.index t (0 : Fin 2) = t.val ∧ win1_6.index t (1 : Fin 2) = 0 :=
  (by decide +kernel : ∀ t : Fin grid1.N, _)

section Blocks
variable (V : (c : Dev nD) → (b : Ref sig .tc) → Buf (Elt Ideal) ((c : Thread nD τ).loc b)) (c : Dev nD)

/-- The first window's block at point t is rows 2000·t … 2000·t + 1999 of its array, all 128 columns: a block's
    coordinate is the block index times the block size plus the coordinate inside the block. -/
theorem blk_agg (t : Fin cfg1.N) (x : S2000x128.Idx) (i : S100000x128.Idx)
    (h0 : (i 0).val = 2000 * t.val + (x 0).val) (h1 : (i 1).val = (x 1).val) :
    (iblk1 V c 0 t : Vec Ideal S2000x128 .f32) x = (V c main_v17 : S100000x128.Idx → EReal) i := by
  obtain ⟨e0, e1, -⟩ := idx_facts t
  unfold iblk1
  rw [View.read_apply]
  show V c main_v17 _ = V c main_v17 _
  refine congrArg (V c main_v17) ?_
  funext a
  apply Fin.ext
  match a with
  | ⟨0, _⟩ => show win1_0.index t (0 : Fin 2) * 2000 + 1 * (x 0).val = (i 0).val; rw [e0, h0]; omega
  | ⟨1, _⟩ => show win1_0.index t (1 : Fin 2) * 128 + 1 * (x 1).val = (i 1).val; rw [e1, h1]; omega

/-- The second window's block is the whole gamma vector at every point. -/
theorem blk_gamma (t : Fin cfg1.N) (k : Fin 128) :
    (iblk1 V c 1 t : Vec Ideal S128 .f32) (ix1 k) = (V c main_arg11 : S128.Idx → EReal) (ix1 k) := by
  obtain ⟨-, -, e, -⟩ := idx_facts t
  unfold iblk1
  rw [View.read_apply]
  show V c main_arg11 _ = V c main_arg11 _
  refine congrArg (V c main_arg11) ?_
  funext a
  apply Fin.ext
  match a with
  | ⟨0, _⟩ => show win1_1.index t (0 : Fin 1) * 128 + 1 * k.val = k.val; rw [e]; omega

/-- The third window's block is the whole beta vector at every point. -/
theorem blk_beta (t : Fin cfg1.N) (k : Fin 128) :
    (iblk1 V c 2 t : Vec Ideal S128 .f32) (ix1 k) = (V c main_arg12 : S128.Idx → EReal) (ix1 k) := by
  obtain ⟨-, -, -, e, -⟩ := idx_facts t
  unfold iblk1
  rw [View.read_apply]
  show V c main_arg12 _ = V c main_arg12 _
  refine congrArg (V c main_arg12) ?_
  funext a
  apply Fin.ext
  match a with
  | ⟨0, _⟩ => show win1_2.index t (0 : Fin 1) * 128 + 1 * k.val = k.val; rw [e]; omega

/-- The fourth window's block is the whole running-mean vector at every point. -/
theorem blk_rmean (t : Fin cfg1.N) (k : Fin 128) :
    (iblk1 V c 3 t : Vec Ideal S128 .f32) (ix1 k) = (V c main_arg13 : S128.Idx → EReal) (ix1 k) := by
  obtain ⟨-, -, -, -, e, -⟩ := idx_facts t
  unfold iblk1
  rw [View.read_apply]
  show V c main_arg13 _ = V c main_arg13 _
  refine congrArg (V c main_arg13) ?_
  funext a
  apply Fin.ext
  match a with
  | ⟨0, _⟩ => show win1_3.index t (0 : Fin 1) * 128 + 1 * k.val = k.val; rw [e]; omega

/-- The fifth window's block is the whole running-variance vector at every point. -/
theorem blk_rvar (t : Fin cfg1.N) (k : Fin 128) :
    (iblk1 V c 4 t : Vec Ideal S128 .f32) (ix1 k) = (V c main_arg14 : S128.Idx → EReal) (ix1 k) := by
  obtain ⟨-, -, -, -, -, e, -⟩ := idx_facts t
  unfold iblk1
  rw [View.read_apply]
  show V c main_arg14 _ = V c main_arg14 _
  refine congrArg (V c main_arg14) ?_
  funext a
  apply Fin.ext
  match a with
  | ⟨0, _⟩ => show win1_4.index t (0 : Fin 1) * 128 + 1 * k.val = k.val; rw [e]; omega

/-- The sixth window's block is the whole [128,64] weight matrix at every point. -/
theorem blk_w (t : Fin cfg1.N) (k : Fin 128) (q : Fin 64) :
    (iblk1 V c 5 t : Vec Ideal S128x64 .f32) (ix2 k q) = (V c main_arg9 : S128x64.Idx → EReal) (ix2 k q) := by
  obtain ⟨-, -, -, -, -, -, e0, e1, -⟩ := idx_facts t
  unfold iblk1
  rw [View.read_apply]
  show V c main_arg9 _ = V c main_arg9 _
  refine congrArg (V c main_arg9) ?_
  funext a
  apply Fin.ext
  match a with
  | ⟨0, _⟩ => show win1_5.index t (0 : Fin 2) * 128 + 1 * k.val = k.val; rw [e0]; omega
  | ⟨1, _⟩ => show win1_5.index t (1 : Fin 2) * 64 + 1 * q.val = q.val; rw [e1]; omega

end Blocks

/-- Reading the output window's block at point t of an array, at an entry of the block, is the array at the entry's
    place in the array. -/
theorem read_out (t : Fin cfg1.N) (f : S100000x64.Idx → EReal) (j : ((cfg1.win 6).xblock (grid1.coords t)).Idx) :
    ((cfg1.win 6).blk t).view.read (Elt Ideal) f j = f (((cfg1.win 6).blk t).view.emb j) := by
  rw [View.read_apply]
  rfl

section Region
variable (V : (c : Dev nD) → (b : Ref sig .tc) → Buf (Elt Ideal) ((c : Thread nD τ).loc b)) (c : Dev nD)
  (x0 : S100000x512.Idx → EReal) (x1 : S100000x128.Idx → EReal) (x2 : S2x1600000.Idx → BitVec 32) (x3 : S512x128.Idx → EReal)
  (x4 : S128.Idx → EReal) (x5 : S128x128.Idx → EReal) (x6 : S128.Idx → EReal) (x7 : S128x128.Idx → EReal) (x8 : S128.Idx → EReal)

/-- What grid point t writes back is block t (rows 2000·t … 2000·t + 1999, all 64 columns) of the reference's last
    stage. At entry (p, q) of the block the body's sum reads the activations' block at (p, k), which is the array at
    (2000·t + p, k), and the whole per-column vectors and weights at k and (k, q); the reference's stage at
    (2000·t + p, q) is the same sum over its earlier stage, which the activations' array holds. -/
theorem flushed_eq
    (hagg : V c main_v17 = Cert.ReferenceIdeal.Read.val_main_v30 (F := Ideal) x0 x1 x2 x3 x4 x5 x6 x7 x8) (t : Fin cfg1.N) :
    (dat1 (F := Ideal) V c).flushed 6 t
      = ((cfg1.win 6).blk t).view.read (Elt Ideal)
          (Cert.ReferenceIdeal.Read.val_main_v47 (F := Ideal) x0 x1 x2 x3 x4 x5 x6 x7 x8 (V c main_arg9) (V c main_arg11) (V c main_arg12)
            (V c main_arg13) (V c main_arg14)) := by
  -- the reference's stage is carried as one function Gf of the array index until its entry is needed
  generalize hG : Cert.ReferenceIdeal.Read.val_main_v47 (F := Ideal) x0 x1 x2 x3 x4 x5 x6 x7 x8 (V c main_arg9) (V c main_arg11) (V c main_arg12)
      (V c main_arg13) (V c main_arg14) = Gf
  -- the output buffer after the body is the one stored value, a function of the six loaded blocks
  show (cfg1.win 6).cut (grid1.coords t) ((dat1 (F := Ideal) V c).after 6 t) = _
  rw [after1_6]
  unfold out1_6
  rw [View.canon_unit_zero hz2]
  simp only [View.ld_unit_zero (S := S2000x128) hz2, View.ld_unit_zero (S := S128) hz1, View.ld_unit_zero (S := S128x64) hz2]
  obtain ⟨-, -, -, -, -, -, -, -, e0, e1⟩ := idx_facts t
  funext j
  have hp : (j 0).val < 2000 := (j 0).isLt
  have hq : (j 1).val < 64 := (j 1).isLt
  have ht : t.val < 50 := by have h : t.val < cfg1.N := t.isLt; have hN : cfg1.N = 50 := N_1; omega
  have hP : 2000 * t.val + (j 0).val < 100000 := by omega
  -- the entry (p, q) inside the block, and its place (2000·t + p, q) in the array
  have hx : (cfg1.win 6).xinj (grid1.coords t) j = ix2 (⟨(j 0).val, hp⟩ : Fin 2000) (⟨(j 1).val, hq⟩ : Fin 64) :=
    funext fun a => Fin.ext (by match a with | ⟨0, _⟩ => rfl | ⟨1, _⟩ => rfl)
  have he : ((cfg1.win 6).blk t).view.emb j
      = ix2 (⟨2000 * t.val + (j 0).val, hP⟩ : Fin 100000) (⟨(j 1).val, hq⟩ : Fin 64) :=
    funext fun a => Fin.ext (by
      match a with
      | ⟨0, _⟩ => show win1_6.index t (0 : Fin 2) * 2000 + 1 * (j 0).val = 2000 * t.val + (j 0).val; rw [e0]; omega
      | ⟨1, _⟩ => show win1_6.index t (1 : Fin 2) * 64 + 1 * (j 1).val = (j 1).val; rw [e1]; omega)
  -- left side: the stored value at (p, q) is the sum over k of activations times weights, of the loaded blocks
  refine (congrArg (k1_pay1 (F := Ideal) (iblk1 V c 0 t) (iblk1 V c 4 t) (iblk1 V c 3 t) (iblk1 V c 1 t) (iblk1 V c 2 t)
    (iblk1 V c 5 t)) hx).trans ?_
  refine (pay_apply (iblk1 V c 0 t) (iblk1 V c 4 t) (iblk1 V c 3 t) (iblk1 V c 1 t) (iblk1 V c 2 t) (iblk1 V c 5 t)
    ⟨(j 0).val, hp⟩ ⟨(j 1).val, hq⟩).trans ?_
  -- right side: the reference's stage at (2000·t + p, q) is the same sum over its earlier stage
  refine Eq.trans ?_ (read_out t Gf j).symm
  rw [he, ← hG, ref_apply]
  -- summand by summand: each block read is the array read, and the activations' array is the earlier stage
  refine Finset.sum_congr rfl fun k _ => ?_
  rw [blk_agg V c t (ix2 ⟨(j 0).val, hp⟩ k) (ix2 ⟨2000 * t.val + (j 0).val, hP⟩ k) rfl rfl,
    blk_rvar V c t k, blk_rmean V c t k, blk_gamma V c t k, blk_beta V c t k, blk_w V c t k ⟨(j 1).val, hq⟩, hagg]

end Region

/-! ## The blocks cover the array -/

/-- An index of the output array is in point t's block iff each coordinate is in the block's range on its axis. -/
theorem mem_blk (t : Fin cfg1.N) (i : S100000x64.Idx) :
    i ∈ ((cfg1.win 6).blk t).view.set ↔ ∀ a : Fin 2, win1_6.index t a * S2000x64.size a ≤ (i a).val
      ∧ (i a).val < win1_6.index t a * S2000x64.size a + S2000x64.size a := by
  show i ∈ ((View.whole main_v18).slice (win1_6.rect t)).set ↔ _
  rw [View.set_slice_whole, Rect.mem_set_unit]
  exact Iff.rfl

/-- Every index of the output array is written: row r lies in the block of point r / 2000, which is written back. -/
theorem cover (i : S100000x64.Idx) :
    ∃ t : Fin cfg1.N, (cfg1.win 6).flush t = true ∧ i ∈ ((cfg1.win 6).blk t).view.set := by
  have hi0 : (i 0).val < 100000 := (i 0).isLt
  have hi1 : (i 1).val < 64 := (i 1).isLt
  have hN : cfg1.N = 50 := N_1
  obtain ⟨t, ht⟩ : ∃ t : Fin cfg1.N, t.val = (i 0).val / 2000 := ⟨⟨(i 0).val / 2000, by rw [hN]; omega⟩, rfl⟩
  obtain ⟨-, -, -, -, -, -, -, -, e0, e1⟩ := idx_facts t
  refine ⟨t, flush1_6 t, ?_⟩
  rw [mem_blk]
  intro a
  match a with
  | ⟨0, _⟩ =>
    show win1_6.index t (0 : Fin 2) * 2000 ≤ (i 0).val ∧ (i 0).val < win1_6.index t (0 : Fin 2) * 2000 + 2000
    rw [e0, ht]; omega
  | ⟨1, _⟩ =>
    show win1_6.index t (1 : Fin 2) * 64 ≤ (i 1).val ∧ (i 1).val < win1_6.index t (1 : Fin 2) * 64 + 64
    rw [e1]; omega

/-- The second region's output array after all 50 grid points is the reference's last stage of the arrays the region
    was entered with, provided the activations' array then held the reference's earlier stage: each point writes its
    block of that function, and the blocks cover the array. -/
theorem region1_array (V : (c : Dev nD) → (b : Ref sig .tc) → Buf (Elt Ideal) ((c : Thread nD τ).loc b)) (c : Dev nD)
    (x0 : S100000x512.Idx → EReal) (x1 : S100000x128.Idx → EReal) (x2 : S2x1600000.Idx → BitVec 32) (x3 : S512x128.Idx → EReal)
    (x4 : S128.Idx → EReal) (x5 : S128x128.Idx → EReal) (x6 : S128.Idx → EReal) (x7 : S128x128.Idx → EReal) (x8 : S128.Idx → EReal)
    (hagg : V c main_v17 = Cert.ReferenceIdeal.Read.val_main_v30 (F := Ideal) x0 x1 x2 x3 x4 x5 x6 x7 x8) :
    (dat1 (F := Ideal) V c).arrAt 6 cfg1.N
      = Cert.ReferenceIdeal.Read.val_main_v47 (F := Ideal) x0 x1 x2 x3 x4 x5 x6 x7 x8 (V c main_arg9) (V c main_arg11) (V c main_arg12)
          (V c main_arg13) (V c main_arg14) :=
  (dat1 (F := Ideal) V c).arrAt_eq_of_cover 6 _ (fun t _ => flushed_eq V c x0 x1 x2 x3 x4 x5 x6 x7 x8 hagg t) cover

end Cert.KernelIdeal.Stage1

end
-- ==== Proof.Result.lean ====
/-
  The kernel program's result as a function of its arguments.

  The contents of the device's buffers at the boundaries of the program's four segments form a chain from the
  launch memory. Followed link by link at the few buffers that matter: the first stage leaves its output array at the
  reference's %17 of the arguments (the blended features times the first layer's weights); the first host stretch
  turns that, the edge list and the first bias into the reference's %30 (rows gathered by source node and
  scatter-added by destination node, plus the bias), and flattens the two rows of the edge list; the second stage,
  entered with its first operand at %30, leaves its output array at the reference's %47 (the normalized, rectified
  aggregate times the second layer's weights); the second host stretch turns that into the reference's result %60.
  Along the way no segment writes an argument, so every stage finds its argument operands at their launch contents.
-/
import proofs.«135634_j90752658964688_1_alg».proof.Proof.Gen.KernelIdeal.Frame
import proofs.«135634_j90752658964688_1_alg».proof.Proof.Gen.ReferenceIdeal.Read
import proofs.«135634_j90752658964688_1_alg».proof.Proof.HostGlue
import proofs.«135634_j90752658964688_1_alg».proof.Proof.Stage0
import proofs.«135634_j90752658964688_1_alg».proof.Proof.Stage1

set_option maxRecDepth 16384

noncomputable section

namespace Cert.KernelIdeal.Result

open Idealize.ShloMosaic Idealize.ShloMosaic.TcCoe Idealize.SL.Sem
open Cert.KernelIdeal Cert.KernelIdeal.Gen

variable (m : (ℓ : Loc nD τ sig) → Buf (Elt Ideal) ℓ) (ρ : Dev nD → PrngReg) (c : Dev nD)

/-! ## After the first stage -/

/-- The first stage's output array is the reference's %17 of the launch contents: the stage's operands are
    arguments, which hold their launch contents when it is entered. -/
theorem first_stage_output : W1 m ρ c (Proc.devRef .tc main_v0)
    = Cert.ReferenceIdeal.Read.val_main_v17 (F := Ideal) (m ((c : Thread nD τ).loc main_arg0)) (m ((c : Thread nD τ).loc main_arg1)) (m ((c : Thread nD τ).loc main_arg3)) (m ((c : Thread nD τ).loc main_arg4)) (m ((c : Thread nD τ).loc main_arg5)) (m ((c : Thread nD τ).loc main_arg6)) (m ((c : Thread nD τ).loc main_arg7)) :=
  (W1_arr m ρ c 7).trans (Cert.KernelIdeal.Stage0.region0_array (V0 m ρ) c)

/-- The first stage writes no buffer but its output: an argument that is none of its windows' arrays keeps its
    launch contents. -/
theorem first_stage_keeps (b : Ref sig .tc) (hb : ∀ w, Pipeline.arrRef spec0 w ≠ b) :
    W1 m ρ c (Proc.devRef .tc b) = m ((c : Thread nD τ).loc b) :=
  W1_of_ne m ρ c b hb

/-! ## After the first host stretch -/

/-- The second stage's first operand is the reference's %30 of the launch contents. -/
theorem aggregate_at_entry : V2 m ρ c main_v17
    = Cert.ReferenceIdeal.Read.val_main_v30 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) :=
  HostGlue.first_aggregate (W1 m ρ c) _ _ _ _ _ _ _ _ _ (first_stage_output m ρ c)
    (first_stage_keeps m ρ c main_arg2 (by decide)) (first_stage_keeps m ρ c main_arg8 (by decide))

theorem sources_at_entry : W2 m ρ c (Proc.devRef .tc main_v2) = Cert.ReferenceIdeal.Read.val_main_v14 (F := Ideal) (m ((c : Thread nD τ).loc main_arg2)) :=
  HostGlue.first_sources (W1 m ρ c) _ (first_stage_keeps m ρ c main_arg2 (by decide))

theorem destinations_at_entry : W2 m ρ c (Proc.devRef .tc main_v4) = Cert.ReferenceIdeal.Read.val_main_v16 (F := Ideal) (m ((c : Thread nD τ).loc main_arg2)) :=
  HostGlue.first_destinations (W1 m ρ c) _ (first_stage_keeps m ρ c main_arg2 (by decide))

theorem arg9_at_entry : V2 m ρ c main_arg9 = (m ((c : Thread nD τ).loc main_arg9)) :=
  (HostGlue.first_keeps_arg9 (W1 m ρ c)).trans (first_stage_keeps m ρ c main_arg9 (by decide))
theorem arg10_at_entry : W2 m ρ c (Proc.devRef .tc main_arg10) = (m ((c : Thread nD τ).loc main_arg10)) :=
  (HostGlue.first_keeps_arg10 (W1 m ρ c)).trans (first_stage_keeps m ρ c main_arg10 (by decide))
theorem arg11_at_entry : V2 m ρ c main_arg11 = (m ((c : Thread nD τ).loc main_arg11)) :=
  (HostGlue.first_keeps_arg11 (W1 m ρ c)).trans (first_stage_keeps m ρ c main_arg11 (by decide))
theorem arg12_at_entry : V2 m ρ c main_arg12 = (m ((c : Thread nD τ).loc main_arg12)) :=
  (HostGlue.first_keeps_arg12 (W1 m ρ c)).trans (first_stage_keeps m ρ c main_arg12 (by decide))
theorem arg13_at_entry : V2 m ρ c main_arg13 = (m ((c : Thread nD τ).loc main_arg13)) :=
  (HostGlue.first_keeps_arg13 (W1 m ρ c)).trans (first_stage_keeps m ρ c main_arg13 (by decide))
theorem arg14_at_entry : V2 m ρ c main_arg14 = (m ((c : Thread nD τ).loc main_arg14)) :=
  (HostGlue.first_keeps_arg14 (W1 m ρ c)).trans (first_stage_keeps m ρ c main_arg14 (by decide))

/-! ## After the second stage -/

/-- The second stage's output array is the reference's %47 of the launch contents. -/
theorem second_stage_output : W3 m ρ c (Proc.devRef .tc main_v18)
    = Cert.ReferenceIdeal.Read.val_main_v47 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg11)) (m ((c : Thread nD τ).loc main_arg12)) (m ((c : Thread nD τ).loc main_arg13)) (m ((c : Thread nD τ).loc main_arg14)) := by
  refine (W3_arr m ρ c 6).trans ((Cert.KernelIdeal.Stage1.region1_array (V2 m ρ) c _ _ _ _ _ _ _ _ _ (aggregate_at_entry m ρ c)).trans ?_)
  rw [arg9_at_entry m ρ c, arg11_at_entry m ρ c, arg12_at_entry m ρ c, arg13_at_entry m ρ c, arg14_at_entry m ρ c]

/-- The second stage writes no buffer but its output. -/
theorem second_stage_keeps (b : Ref sig .tc) (hb : ∀ w, Pipeline.arrRef spec1 w ≠ b) :
    W3 m ρ c (Proc.devRef .tc b) = W2 m ρ c (Proc.devRef .tc b) :=
  W3_of_ne m ρ c b hb

/-! ## The result -/

/-- THE RESULT of the kernel program, as a function of the launch contents of its arguments: the reference's
    result %60 of the same arrays. -/
theorem result_eq : W4 m ρ c (Proc.devRef .tc main_v31)
    = Cert.ReferenceIdeal.Read.val_main_v60 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) :=
  HostGlue.second_aggregate (W3 m ρ c) _ _ _ _ _ _ _ _ _ _ _ _ _ _ _ (second_stage_output m ρ c)
    ((second_stage_keeps m ρ c main_v2 (by decide)).trans (sources_at_entry m ρ c))
    ((second_stage_keeps m ρ c main_v4 (by decide)).trans (destinations_at_entry m ρ c))
    ((second_stage_keeps m ρ c main_arg10 (by decide)).trans (arg10_at_entry m ρ c))

end Cert.KernelIdeal.Result

end
-- ==== Proof.lean ====
/-
  A two-layer graph convolution on 100000 nodes and 1600000 edges, as two row-tiled matrix stages with host
  operations between and after them, against the same network written with whole-array operations.

  Stage one computes, 2000 rows at a time, z = (c₁·(x1·W1 + b1) + c₂·(x2·W2 + b2))·Wg1; the host gathers the rows of z
  by source node, scatter-adds them by destination node and adds a bias; stage two computes, 2000 rows at a time,
  z2 = max((agg − rmean)·rsqrt(rvar + ε)·gamma + beta, 0)·Wg2; the host gathers, scatter-adds and adds a bias again.
  The reference does the same with one matrix product over all 100000 rows per product. On the extended reals a
  change of float format is the identity and a matrix product into a zero accumulator is the plain sum over the
  contracted index, so a row of a product of row blocks is the row of the whole product, and the two programs apply
  the same operations to the same numbers in the same order: their results are equal entry by entry, for all
  inputs (finiteness of the inputs is never used). The host operations are literally the same on both sides.

  The frames of the two kernel programs and the run of the reference are the generated ones; written here are the
  kernel program's run with its result read (WholeRun), each stage's output array as the reference's stage (Stage0,
  Stage1), the host stretches as the reference's stages (HostGlue), their chain (Result), and the claims.
-/
import proofs.«135634_j90752658964688_1_alg».proof.Defs
import proofs.«135634_j90752658964688_1_alg».proof.Proof.Gen.Kernel
import proofs.«135634_j90752658964688_1_alg».proof.Proof.Gen.Kernel.Skeleton
import proofs.«135634_j90752658964688_1_alg».proof.Proof.Gen.Kernel.Launch
import proofs.«135634_j90752658964688_1_alg».proof.Proof.Gen.Kernel.Points
import proofs.«135634_j90752658964688_1_alg».proof.Proof.Gen.Kernel.Frame
import proofs.«135634_j90752658964688_1_alg».proof.Proof.Gen.KernelIdeal
import proofs.«135634_j90752658964688_1_alg».proof.Proof.Gen.KernelIdeal.Skeleton
import proofs.«135634_j90752658964688_1_alg».proof.Proof.Gen.KernelIdeal.Launch
import proofs.«135634_j90752658964688_1_alg».proof.Proof.Gen.KernelIdeal.Points
import proofs.«135634_j90752658964688_1_alg».proof.Proof.Gen.KernelIdeal.Frame
import proofs.«135634_j90752658964688_1_alg».proof.Proof.Gen.ReferenceIdeal
import proofs.«135634_j90752658964688_1_alg».proof.Proof.Gen.ReferenceIdeal.Run
import proofs.«135634_j90752658964688_1_alg».proof.Proof.Gen.ReferenceIdeal.Read
import proofs.«135634_j90752658964688_1_alg».proof.Proof.Gen.Pre_finite_inputs
import proofs.«135634_j90752658964688_1_alg».proof.Proof.WholeRun
import proofs.«135634_j90752658964688_1_alg».proof.Proof.Result
import Idealize.ShloMosaic.Adequacy
import Idealize.ShloMosaic.Init

set_option maxRecDepth 16384

noncomputable section

namespace Cert.Proof

open Idealize.ShloMosaic Idealize.ShloMosaic.TcCoe Idealize.SL.Sem

/-- The word-level kernel program runs, faults nowhere and leaves its arguments as launched. -/
theorem frame_kernel : Cert.frame_Kernel := fun m ρ _ => Cert.Kernel.Gen.frame m ρ

/-- So does the kernel program read on the extended reals. -/
theorem frame_kernel_ideal : Cert.frame_KernelIdeal := fun m ρ _ => Cert.KernelIdeal.Gen.frame m ρ

/-- The reference is a straight line of host operations: its run, with the result forgotten. -/
theorem frame_reference_ideal : Cert.frame_ReferenceIdeal := fun m ρ _ =>
  (θ_run Cert.ReferenceIdeal.defs _ _).mono (fun _ h c => (h c).2) (Cert.ReferenceIdeal.Value.run (F := Ideal) m ρ)

/-- Reading the kernel program on the extended reals rewrote no operation, so there is nothing to preserve. -/
theorem preserves : Cert.preserves_Kernel_KernelIdeal := trivial

/-- From memories that agree on the arguments both programs end with the reference's result of the arguments:
    the kernel program by the chain of its four segments, the reference by its own run. -/
theorem algebraic : Cert.algebraic_KernelIdeal_ReferenceIdeal := by
  intro m ρ m' ρ' _ hagree
  refine ⟨fun c => Cert.ReferenceIdeal.Read.val_main_v60 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)), ?_, ?_⟩
  · exact (θ_run Cert.KernelIdeal.defs _ _).mono
      (fun r h c => ⟨(h c).1.trans (Cert.KernelIdeal.Result.result_eq m ρ c), (h c).2⟩)
      (Cert.KernelIdeal.WholeRun.run_result (F := Ideal) m ρ)
  · refine (θ_run Cert.ReferenceIdeal.defs _ _).mono (fun _ h c => ⟨(h c).1.trans ?_, (h c).2⟩)
      (Cert.ReferenceIdeal.Value.run (F := Ideal) m' ρ')
    obtain ⟨e0, e1, e2, e3, e4, e5, e6, e7, e8, e9, e10, e11, e12, e13, e14⟩ := hagree c
    rw [Cert.ReferenceIdeal.Read.val_main_v60_eq, e0, e1, e2, e3, e4, e5, e6, e7, e8, e9, e10, e11, e12, e13, e14]

theorem claim : Cert.Claim :=
  ⟨Cert.Kernel.Gen.facts, Cert.KernelIdeal.Gen.facts, Cert.ReferenceIdeal.Gen.facts, Cert.Pre_finite_inputs.Gen.facts,
    frame_kernel, frame_kernel_ideal, frame_reference_ideal, preserves, algebraic⟩

end Cert.Proof

end
